-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64x32 : Shape := ⟨5, ![4, 64, 64, 64, 32]⟩
abbrev S_ : Shape := ⟨0, ![]⟩

class Facts : Prop where
  bcast_S_S4x64x64x64x32 : S_.BroadcastsInDim S4x64x64x64x32 (![] : Fin 0 → Fin S4x64x64x64x32.rank)
  reducesTo_S4x64x64x64x32_S_d0_1_2_3_4 : S4x64x64x64x32.ReducesTo [0, 1, 2, 3, 4] S_
  h_S_ : 0 < S_.numel

variable [Facts]

def fn {F : FTy → Type} [FloatOps F] (main_arg0 : FVec F S4x64x64x64x32 .f32) (main_arg1 : FVec F S4x64x64x64x32 .f32) : IVec S_ 1 :=
  let main_v0 : FVec F S4x64x64x64x32 .f32 := Host.absf main_arg0
  let main_cst : FVec F S_ .f32 := constant S_ .f32 0x7F800000#32
  let main_v1 : FVec F S4x64x64x64x32 .f32 := broadcastInDim S4x64x64x64x32 ![] bcast_S_S4x64x64x64x32 main_cst
  let main_v2 : IVec S4x64x64x64x32 1 := cmpf .olt main_v0 main_v1
  let main_c : IVec S_ 1 := constantI S_ 1 1#1
  let main_v3 : IVec S_ 1 := (fun x v => Host.reduce IntOp.andi x v reducesTo_S4x64x64x64x32_S_d0_1_2_3_4 h_S_) main_v2 main_c
  let main_v4 : FVec F S4x64x64x64x32 .f32 := Host.absf main_arg1
  let main_cst_0 : FVec F S_ .f32 := constant S_ .f32 0x7F800000#32
  let main_v5 : FVec F S4x64x64x64x32 .f32 := broadcastInDim S4x64x64x64x32 ![] bcast_S_S4x64x64x64x32 main_cst_0
  let main_v6 : IVec S4x64x64x64x32 1 := cmpf .olt main_v4 main_v5
  let main_c_1 : IVec S_ 1 := constantI S_ 1 1#1
  let main_v7 : IVec S_ 1 := (fun x v => Host.reduce IntOp.andi x v reducesTo_S4x64x64x64x32_S_d0_1_2_3_4 h_S_) main_v6 main_c_1
  let main_v8 : IVec S_ 1 := andi main_v3 main_v7
  main_v8
-- ==== Kernel.lean ====
abbrev S4x64x64x64x32 : Shape := ⟨5, ![4, 64, 64, 64, 32]⟩
abbrev S4x262144x32 : Shape := ⟨3, ![4, 262144, 32]⟩
abbrev S4x65536x128 : Shape := ⟨3, ![4, 65536, 128]⟩
abbrev S4x128x128 : Shape := ⟨3, ![4, 128, 128]⟩
abbrev S1x8192x128 : Shape := ⟨3, ![1, 8192, 128]⟩
abbrev S1x128x128 : Shape := ⟨3, ![1, 128, 128]⟩
abbrev S8192x128 : Shape := ⟨2, ![8192, 128]⟩
abbrev S128x128 : Shape := ⟨2, ![128, 128]⟩
abbrev S_ : Shape := ⟨0, ![]⟩
abbrev S4x32x32 : Shape := ⟨3, ![4, 32, 32]⟩
abbrev S4x32 : Shape := ⟨2, ![4, 32]⟩
abbrev S4x32x1 : Shape := ⟨3, ![4, 32, 1]⟩
abbrev S4x32x128 : Shape := ⟨3, ![4, 32, 128]⟩

abbrev nBuf : Space → Nat
  | .hbm => 41
  | .vmem => 12
  | .smem => 0
  | _ => 0

abbrev bufTy : (tb : Table) → Fin (tcTables nBuf tb) → BufTy
  | .hbm, ⟨0, _⟩ => ⟨S4x64x64x64x32, .f32⟩
  | .hbm, ⟨1, _⟩ => ⟨S4x64x64x64x32, .f32⟩
  | .hbm, ⟨2, _⟩ => ⟨S4x262144x32, .f32⟩
  | .hbm, ⟨3, _⟩ => ⟨S4x262144x32, .f32⟩
  | .hbm, ⟨4, _⟩ => ⟨S4x65536x128, .f32⟩
  | .hbm, ⟨5, _⟩ => ⟨S4x65536x128, .f32⟩
  | .hbm, ⟨6, _⟩ => ⟨S4x128x128, .f32⟩
  | .hbm, ⟨7, _⟩ => ⟨S_, .f32⟩
  | .hbm, ⟨8, _⟩ => ⟨S4x32x32, .f32⟩
  | .hbm, ⟨9, _⟩ => ⟨S4x32x32, .f32⟩
  | .hbm, ⟨10, _⟩ => ⟨S4x32x32, .f32⟩
  | .hbm, ⟨11, _⟩ => ⟨S4x32x32, .f32⟩
  | .hbm, ⟨12, _⟩ => ⟨S4x32x32, .f32⟩
  | .hbm, ⟨13, _⟩ => ⟨S4x32x32, .f32⟩
  | .hbm, ⟨14, _⟩ => ⟨S4x32x32, .f32⟩
  | .hbm, ⟨15, _⟩ => ⟨S4x32x32, .f32⟩
  | .hbm, ⟨16, _⟩ => ⟨S4x32x32, .f32⟩
  | .hbm, ⟨17, _⟩ => ⟨S_, .f32⟩
  | .hbm, ⟨18, _⟩ => ⟨S4x32, .f32⟩
  | .hbm, ⟨19, _⟩ => ⟨S_, .f32⟩
  | .hbm, ⟨20, _⟩ => ⟨S4x32, .f32⟩
  | .hbm, ⟨21, _⟩ => ⟨S4x32, .f32⟩
  | .hbm, ⟨22, _⟩ => ⟨S4x32x1, .f32⟩
  | .hbm, ⟨23, _⟩ => ⟨S4x32x32, .f32⟩
  | .hbm, ⟨24, _⟩ => ⟨S4x32x32, .f32⟩
  | .hbm, ⟨25, _⟩ => ⟨S4x32x32, .f32⟩
  | .hbm, ⟨26, _⟩ => ⟨S_, .f32⟩
  | .hbm, ⟨27, _⟩ => ⟨S4x32, .f32⟩
  | .hbm, ⟨28, _⟩ => ⟨S4x32x1, .f32⟩
  | .hbm, ⟨29, _⟩ => ⟨S4x32x32, .f32⟩
  | .hbm, ⟨30, _⟩ => ⟨S4x32x32, .f32⟩
  | .hbm, ⟨31, _⟩ => ⟨S4x32x32, .f32⟩
  | .hbm, ⟨32, _⟩ => ⟨S_, .f32⟩
  | .hbm, ⟨33, _⟩ => ⟨S4x32x32, .f32⟩
  | .hbm, ⟨34, _⟩ => ⟨S4x32x128, .f32⟩
  | .hbm, ⟨35, _⟩ => ⟨S4x32x128, .f32⟩
  | .hbm, ⟨36, _⟩ => ⟨S4x32x128, .f32⟩
  | .hbm, ⟨37, _⟩ => ⟨S4x32x128, .f32⟩
  | .hbm, ⟨38, _⟩ => ⟨S4x128x128, .f32⟩
  | .hbm, ⟨39, _⟩ => ⟨S4x65536x128, .f32⟩
  | .hbm, ⟨40, _⟩ => ⟨S4x64x64x64x32, .f32⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S1x128x128, .f32⟩
  | .local _ .vmem, ⟨5, _⟩ => ⟨S1x128x128, .f32⟩
  | .local _ .vmem, ⟨6, _⟩ => ⟨S1x8192x128, .f32⟩
  | .local _ .vmem, ⟨7, _⟩ => ⟨S1x8192x128, .f32⟩
  | .local _ .vmem, ⟨8, _⟩ => ⟨S1x128x128, .f32⟩
  | .local _ .vmem, ⟨9, _⟩ => ⟨S1x128x128, .f32⟩
  | .local _ .vmem, ⟨10, _⟩ => ⟨S1x8192x128, .f32⟩
  | .local _ .vmem, ⟨11, _⟩ => ⟨S1x8192x128, .f32⟩
  | _, _ => ⟨S4x64x64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x64x64x64x32_S4x262144x32 : S4x64x64x64x32.ShapeCasts S4x262144x32
  shapeCasts_S4x262144x32_S4x65536x128 : S4x262144x32.ShapeCasts S4x65536x128
  inb_S1x128x128_S1x128x128_0_0_0 : ∀ a, (![0, 0, 0] : Fin 3 → Nat) a + S1x128x128.size a ≤ S1x128x128.size a
  h_S1x128x128 : 0 < S1x128x128.numel
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  bitsLt_bf16_f32 : FTy.bits .bf16 < FTy.bits .f32
  shapeCasts_S1x128x128_S1x128x128 : S1x128x128.ShapeCasts S1x128x128
  shapeCasts_S128x128_S1x128x128 : S128x128.ShapeCasts S1x128x128
  bcast_S_S4x32x32 : S_.BroadcastsInDim S4x32x32 (![] : Fin 0 → Fin S4x32x32.rank)
  slices_S4x128x128_S4x32x32_0_0_0 : S4x128x128.Slices ![0, 0, 0] S4x32x32
  slices_S4x128x128_S4x32x32_0_32_32 : S4x128x128.Slices ![0, 32, 32] S4x32x32
  slices_S4x128x128_S4x32x32_0_64_64 : S4x128x128.Slices ![0, 64, 64] S4x32x32
  slices_S4x128x128_S4x32x32_0_96_96 : S4x128x128.Slices ![0, 96, 96] S4x32x32
  reducesTo_S4x32x32_S4x32_d2 : S4x32x32.ReducesTo [2] S4x32
  h_S_ : 0 < S_.numel
  bcast_S_S4x32 : S_.BroadcastsInDim S4x32 (![] : Fin 0 → Fin S4x32.rank)
  bcast_S4x32_S4x32x1_0_1 : S4x32.BroadcastsInDim S4x32x1 (![0, 1] : Fin 2 → Fin S4x32x1.rank)
  bcast_S4x32x1_S4x32x32_0_1_2 : S4x32x1.BroadcastsInDim S4x32x32 (![0, 1, 2] : Fin 3 → Fin S4x32x32.rank)
  transposes_S4x32x32_S4x32x32_0_2_1 : S4x32x32.Transposes [0, 2, 1] S4x32x32
  concatenates_S4x32x32_S4x32x32_S4x32x32_S4x32x32_S4x32x128_d2 : Shape.Concatenates [S4x32x32, S4x32x32, S4x32x32, S4x32x32] S4x32x128 2
  concatenates_S4x32x128_S4x32x128_S4x32x128_S4x32x128_S4x128x128_d1 : Shape.Concatenates [S4x32x128, S4x32x128, S4x32x128, S4x32x128] S4x128x128 1
  shapeCasts_S1x128x128_S128x128 : S1x128x128.ShapeCasts S128x128
  shapeCasts_S8192x128_S1x8192x128 : S8192x128.ShapeCasts S1x8192x128
  shapeCasts_S4x65536x128_S4x64x64x64x32 : S4x65536x128.ShapeCasts S4x64x64x64x32
  dot_S8192x128_S8192x128_S128x128_0_0_1_1_n_n_wf : DotDims.WF S8192x128 S8192x128 S128x128 [0] [0] [1] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S4x65536x128.size a
  hwx0_0 : ∀ i : grid0.Coords, EltTy.bits .f32 = 32 ∨ (Rect.block (s := S4x65536x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x128.size a ≤ S4x65536x128.size a
  hwx0_1 : ∀ i : grid0.Coords, EltTy.bits .f32 = 32 ∨ (Rect.block (s := S4x65536x128) S1x8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S4x128x128.size a
  hwx0_2 : ∀ i : grid0.Coords, EltTy.bits .f32 = 32 ∨ (Rect.block (s := S4x128x128) S1x128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x128.size a ≤ S4x65536x128.size a
  hwx1_0 : ∀ i : grid1.Coords, EltTy.bits .f32 = 32 ∨ (Rect.block (s := S4x65536x128) S1x8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S4x128x128.size a
  hwx1_1 : ∀ i : grid1.Coords, EltTy.bits .f32 = 32 ∨ (Rect.block (s := S4x128x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192x128.size a ≤ S4x65536x128.size a
  hwx1_2 : ∀ i : grid1.Coords, EltTy.bits .f32 = 32 ∨ (Rect.block (s := S4x65536x128) S1x8192x128.size (cc1_transform_2 i) (hinb1_2 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v2) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x64x64x64x32 : Shape := ⟨5, ![4, 64, 64, 64, 32]⟩
abbrev S4x262144x32 : Shape := ⟨3, ![4, 262144, 32]⟩
abbrev S4x32x32 : Shape := ⟨3, ![4, 32, 32]⟩
abbrev S_ : Shape := ⟨0, ![]⟩
abbrev S4x32 : Shape := ⟨2, ![4, 32]⟩
abbrev S4x32x1 : Shape := ⟨3, ![4, 32, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x64x64x64x32, .f32⟩
  | .hbm, ⟨1, _⟩ => ⟨S4x64x64x64x32, .f32⟩
  | .hbm, ⟨2, _⟩ => ⟨S4x262144x32, .f32⟩
  | .hbm, ⟨3, _⟩ => ⟨S4x262144x32, .f32⟩
  | .hbm, ⟨4, _⟩ => ⟨S4x32x32, .f32⟩
  | .hbm, ⟨5, _⟩ => ⟨S_, .f32⟩
  | .hbm, ⟨6, _⟩ => ⟨S4x32, .f32⟩
  | .hbm, ⟨7, _⟩ => ⟨S_, .f32⟩
  | .hbm, ⟨8, _⟩ => ⟨S4x32, .f32⟩
  | .hbm, ⟨9, _⟩ => ⟨S4x32, .f32⟩
  | .hbm, ⟨10, _⟩ => ⟨S4x32x1, .f32⟩
  | .hbm, ⟨11, _⟩ => ⟨S4x32x32, .f32⟩
  | .hbm, ⟨12, _⟩ => ⟨S4x32x32, .f32⟩
  | .hbm, ⟨13, _⟩ => ⟨S4x32x32, .f32⟩
  | .hbm, ⟨14, _⟩ => ⟨S_, .f32⟩
  | .hbm, ⟨15, _⟩ => ⟨S4x32, .f32⟩
  | .hbm, ⟨16, _⟩ => ⟨S4x32x1, .f32⟩
  | .hbm, ⟨17, _⟩ => ⟨S4x32x32, .f32⟩
  | .hbm, ⟨18, _⟩ => ⟨S4x32x32, .f32⟩
  | .hbm, ⟨19, _⟩ => ⟨S4x262144x32, .f32⟩
  | .hbm, ⟨20, _⟩ => ⟨S4x64x64x64x32, .f32⟩
  | .hbm, ⟨21, _⟩ => ⟨S4x64x64x64x32, .f32⟩
  | _, _ => ⟨S4x64x64x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  shapeCasts_S4x64x64x64x32_S4x262144x32 : S4x64x64x64x32.ShapeCasts S4x262144x32
  reducesTo_S4x32x32_S4x32_d2 : S4x32x32.ReducesTo [2] S4x32
  h_S_ : 0 < S_.numel
  bcast_S_S4x32 : S_.BroadcastsInDim S4x32 (![] : Fin 0 → Fin S4x32.rank)
  bcast_S4x32_S4x32x1_0_1 : S4x32.BroadcastsInDim S4x32x1 (![0, 1] : Fin 2 → Fin S4x32x1.rank)
  bcast_S4x32x1_S4x32x32_0_1_2 : S4x32x1.BroadcastsInDim S4x32x32 (![0, 1, 2] : Fin 3 → Fin S4x32x32.rank)
  shapeCasts_S4x262144x32_S4x64x64x64x32 : S4x262144x32.ShapeCasts S4x64x64x64x32
  dot_S4x262144x32_S4x262144x32_S4x32x32_1_1_2_2_0_0_wf : DotDims.WF S4x262144x32 S4x262144x32 S4x32x32 [1] [1] [2] [2] [0] [0]
  dot_S4x262144x32_S4x32x32_S4x262144x32_2_2_1_1_0_0_wf : DotDims.WF S4x262144x32 S4x32x32 S4x262144x32 [2] [2] [1] [1] [0] [0]

variable [Facts₀]

def dot_S4x262144x32_S4x262144x32_S4x32x32_1_1_2_2_0_0 : DotDims S4x262144x32 S4x262144x32 S4x32x32 where
  lhsContracting := [1]
  rhsContracting := [1]
  lhsNonContracting := [2]
  rhsNonContracting := [2]
  lhsBatch := [0]
  rhsBatch := [0]
  wf := dot_S4x262144x32_S4x262144x32_S4x32x32_1_1_2_2_0_0_wf
def dot_S4x262144x32_S4x32x32_S4x262144x32_2_2_1_1_0_0 : DotDims S4x262144x32 S4x32x32 S4x262144x32 where
  lhsContracting := [2]
  rhsContracting := [2]
  lhsNonContracting := [1]
  rhsNonContracting := [1]
  lhsBatch := [0]
  rhsBatch := [0]
  wf := dot_S4x262144x32_S4x32x32_S4x262144x32_2_2_1_1_0_0_wf

class Facts : Prop extends Facts₀ where

variable [Facts]
-- ==== Proof.KBRuns.lean ====
/-
  What the body runs of the two kernels share: the first kernel's one branch condition (the row-tile coordinate is
  zero: the first tile of a batch, where the accumulator block is reset), decided over the 4 x 8 grid; a view through
  which an output block's contents are stated; and each window's current staging memref at a grid point.
-/
import proofs.«181825_j55095840473688_2_alg».proof.Proof.Gen.Kernel.Launch
import proofs.«181825_j55095840473688_2_alg».proof.Proof.Gen.Kernel.Skeleton
import proofs.«181825_j55095840473688_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first kernel's branch condition: the row-tile coordinate (grid axis 1) is zero. -/
abbrev cond0 (i : grid0.Coords) : Prop := (Scalar.cmpi .ne (Scalar.extui (Scalar.cmpi .eq (BitVec.ofNat 32 (i 1).val) 0#32)) 0#32) = 1#1
/-- It holds exactly at the first of each batch's eight row tiles. -/
theorem hcond0 : ∀ t : Fin cfg0.N, cond0 (grid0.coords t) ↔ t.val % 8 = 0 :=
  (by decide +kernel : ∀ t : Fin grid0.N, cond0 (grid0.coords t) ↔ t.val % 8 = 0)

/-- A view of one 128 x 128 accumulator block, and of one 8192 x 128 output block. -/
abbrev VO0 : View sig .tc .vmem S1x128x128 .f32 := (Memref.whole cc0_stg2_0 : Memref sig .tc .vmem S1x128x128 .f32).view
abbrev VO1 : View sig .tc .vmem S1x8192x128 .f32 := (Memref.whole cc1_stg2_0 : Memref sig .tc .vmem S1x8192x128 .f32).view

/-- Each window's current staging memref at a grid point, and that it is a whole buffer. -/
abbrev ms0_0 (t : Fin cfg0.N) : Memref sig .tc .vmem S1x8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
abbrev ms1_0 (t : Fin cfg1.N) : Memref sig .tc .vmem S1x8192x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192x128 .f32 := win1_2.stage (cfg1.slots t 2)
abbrev hs1_2 (t : Fin cfg1.N) : (ms1_2 t).IsWhole := hstage1_2 ((cfg1.slots t 2).cast nbuf1_2)

end Cert.Kernel.Hand

end
-- ==== Proof.KBRun0A.lean ====
/-
  The first kernel's body, run on whole staging memrefs in the case where the row-tile coordinate is zero (the accumulator block is first set to zero):
  the two input blocks are left as they were and the accumulator block ends with the body's stores written, as a list
  of pieces the symbolic run finds.
-/
import proofs.«181825_j55095840473688_2_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : cond0 i)
    (x0 x1 : Vec F S1x8192x128 .f32) :
    { L : List (View.Piece (Elt F) S1x128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc0__kernelA_packed i arg2 harg2 arg3 harg3 arg4 harg4) K } := by
  refine ⟨?_, fun E K => ?run⟩
  case run =>
    simp only [cc0__kernelA_packed_eq_skeleton]; unfold cc0__kernelA_packed_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KBRun0B.lean ====
/-
  The first kernel's body, run on whole staging memrefs in the case where the row-tile coordinate is not zero (the accumulator block holds the partial sum of the earlier tiles):
  the two input blocks are left as they were and the accumulator block ends with the body's stores written, as a list
  of pieces the symbolic run finds.
-/
import proofs.«181825_j55095840473688_2_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : ¬cond0 i)
    (x0 x1 : Vec F S1x8192x128 .f32) (xo : Vec F S1x128x128 .f32) :
    { L : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc0__kernelA_packed i arg2 harg2 arg3 harg3 arg4 harg4) K } := by
  refine ⟨?_, fun E K => ?run⟩
  case run =>
    simp only [cc0__kernelA_packed_eq_skeleton]; unfold cc0__kernelA_packed_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KBRun1.lean ====
/-
  The second kernel's body, run on whole staging memrefs: the row block and the 128 x 128 weight block are left as
  they were and the output block ends with the body's one store written, as the piece the symbolic run finds.
-/
import proofs.«181825_j55095840473688_2_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1 (c : Dev nD) (i : grid1.Coords) (arg2 : Memref sig .tc .vmem S1x8192x128 .f32) (harg2 : arg2.IsWhole) (arg3 : Memref sig .tc .vmem S1x128x128 .f32) (harg3 : arg3.IsWhole) (arg4 : Memref sig .tc .vmem S1x8192x128 .f32) (harg4 : arg4.IsWhole)
    (x0 : Vec F S1x8192x128 .f32) (x1 : Vec F S1x128x128 .f32) :
    { L : List (View.Piece (Elt F) S1x8192x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc1__kernelB_packed i arg2 harg2 arg3 harg3 arg4 harg4) K } := by
  refine ⟨?_, fun E K => ?run⟩
  case run =>
    simp only [cc1__kernelB_packed_eq_skeleton]; unfold cc1__kernelB_packed_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KBRegions.lean ====
/-
  The run of the whole program: reshapes, the first kernel (a 4 x 8 grid accumulating, per batch, the 128 x 128 packed
  cross products of eight 8192-row tiles into one block), the host stretch that folds the four diagonal 32 x 32 blocks,
  takes the softmax and builds the block-diagonal weight matrix, the second kernel (a 4 x 8 grid, each point one
  8192 x 128 row block times the batch's 128 x 128 weights, added to the block), and the final reshape.

  Per kernel, at a parameter V (the buffer contents when the kernel is entered): each window's block at a grid point,
  what each output buffer holds after the body there, the proof data of the pipeline and the body obligation. For the
  first kernel the accumulator block after point n is, by recursion on n, the body's result over what point n - 1 left,
  reset at the first tile of each batch. Then the contents of every buffer at the six boundaries between the five
  segments, and the run: every execution terminates with every unscoped buffer at the last boundary's contents.
-/
import proofs.«181825_j55095840473688_2_alg».proof.Proof.KBRun0A
import proofs.«181825_j55095840473688_2_alg».proof.Proof.KBRun0B
import proofs.«181825_j55095840473688_2_alg».proof.Proof.KBRun1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # The first kernel, entered at the contents V -/

/-- Window w's block at grid point t, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The stores of either case tile the accumulator block. -/
theorem cover0_A (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : cond0 i)
    (x0 x1 : Vec F S1x8192x128 .f32) (y : S1x128x128.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x128x128.size (by sl_kernel_rfl) y
/-- What the first-tile case leaves in the accumulator block. -/
def out0_A (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : cond0 i)
    (x0 x1 : Vec F S1x8192x128 .f32) : Vec F S1x128x128 .f32 :=
  VO0.read (Elt F) (VO0.writes (Elt F) VO0.junk (kernelRun0_A c i arg2 harg2 arg3 harg3 arg4 harg4 hc0 x0 x1).1)
theorem cover0_B (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : ¬cond0 i)
    (x0 x1 : Vec F S1x8192x128 .f32) (xo : Vec F S1x128x128 .f32) (y : S1x128x128.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S1x128x128.size (by sl_kernel_rfl) y
/-- What a later-tile case leaves in the accumulator block, over what it held. -/
def out0_B (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : ¬cond0 i)
    (x0 x1 : Vec F S1x8192x128 .f32) (xo : Vec F S1x128x128 .f32) : Vec F S1x128x128 .f32 :=
  VO0.read (Elt F) (VO0.writes (Elt F) VO0.junk (kernelRun0_B c i arg2 harg2 arg3 harg3 arg4 harg4 hc0 x0 x1 xo).1)

/-- THE ACCUMULATION: the accumulator block after the body at position n. -/
def outsAt0 (c : Dev nD) : (n : ℕ) → n < cfg0.N → Vec F S1x128x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0 ⟨0, hn⟩).mpr (Nat.zero_mod _)) (iblk0 V c 0 ⟨0, hn⟩) (iblk0 V c 1 ⟨0, hn⟩)
  | n + 1, hn =>
    if h0 : (n + 1) % 8 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0 ⟨n + 1, hn⟩).mpr h0) (iblk0 V c 0 ⟨n + 1, hn⟩) (iblk0 V c 1 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn))

theorem outsAt0_A (c : Dev nD) (t : Fin cfg0.N) (h0 : t.val % 8 = 0) :
    outsAt0 V c t.val t.isLt = out0_A c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = out0_B c (grid0.coords t) (ms0_0 t) (hs0_0 t) (ms0_1 t) (hs0_1 t) (ms0_2 t) (hs0_2 t) (fun h => h0 ((hcond0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later tile the accumulator's staging buffer holds what the body left at the point before: it is written
    back only after a batch's last tile. -/
theorem before0_2_B (c : Dev nD) (t : Fin cfg0.N) (h0 : ¬t.val % 8 = 0) (d) :
    (dat0 V c).before 2 t d = outsAt0 V c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 32 := lt_of_lt_of_eq t.isLt (show cfg0.N = 32 from N_0)
  by_cases h0 : t.val % 8 = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-! # The second kernel, entered at the contents V -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem cover1 (c : Dev nD) (i : grid1.Coords) (arg2 : Memref sig .tc .vmem S1x8192x128 .f32) (harg2 : arg2.IsWhole) (arg3 : Memref sig .tc .vmem S1x128x128 .f32) (harg3 : arg3.IsWhole) (arg4 : Memref sig .tc .vmem S1x8192x128 .f32) (harg4 : arg4.IsWhole)
    (x0 : Vec F S1x8192x128 .f32) (x1 : Vec F S1x128x128 .f32) (y : S1x8192x128.Idx) :
    ∃ pc ∈ (kernelRun1 c i arg2 harg2 arg3 harg3 arg4 harg4 x0 x1).1, y ∈ pc.1.set :=
  View.cover_of_tiledL (kernelRun1 c i arg2 harg2 arg3 harg3 arg4 harg4 x0 x1).1 S1x8192x128.size (by sl_kernel_rfl) y
/-- What the body leaves in the output block. -/
def out1 (c : Dev nD) (i : grid1.Coords) (arg2 : Memref sig .tc .vmem S1x8192x128 .f32) (harg2 : arg2.IsWhole) (arg3 : Memref sig .tc .vmem S1x128x128 .f32) (harg3 : arg3.IsWhole) (arg4 : Memref sig .tc .vmem S1x8192x128 .f32) (harg4 : arg4.IsWhole)
    (x0 : Vec F S1x8192x128 .f32) (x1 : Vec F S1x128x128 .f32) : Vec F S1x8192x128 .f32 :=
  VO1.read (Elt F) (VO1.writes (Elt F) VO1.junk (kernelRun1 c i arg2 harg2 arg3 harg3 arg4 harg4 x0 x1).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 c (grid1.coords t) (ms1_0 t) (hs1_0 t) (ms1_1 t) (hs1_1 t) (ms1_2 t) (hs1_2 t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 c (grid1.coords t) (ms1_0 t) (hs1_0 t) (ms1_1 t) (hs1_1 t) (ms1_2 t) (hs1_2 t) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1 c _ _ _ _ _ _ _ _ _)

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KBFrame.lean ====
/-
  The run of the whole program from the two kernels' halves: the contents of every buffer at the six boundaries
  between @main's five segments (a fold from the launch memory: a host stretch applies its operations, a kernel
  leaves its arrays at what its write-backs make of them and every other buffer as it found it), the two kernels
  as segments, and the launch. Every execution terminates with every unscoped buffer at the last boundary's
  contents; the argument arrays read back through the fold are the launch contents.
-/
import proofs.«181825_j55095840473688_2_alg».proof.Proof.KBRegions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps2 (W4 m ρ c)

/-! ### The arguments end as launched: no host operation writes one and no kernel has one among its arrays -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The kernels as segments -/

set_option backward.isDefEq.respectTransparency.types false in
/-- Kernel 0 as a segment: entered from every unscoped buffer at one boundary's contents, left at the next one's. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: entered from every unscoped buffer at one boundary's contents, left at the next one's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => show (iprop(StableHlo.held (c : Thread nD τ) (Pipeline.ucRefs τ sig) (StableHlo.after hostOps2 (W4 m ρ c)) ∗ R c) : sProp 𝕄)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME at any instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

end Cert.Kernel.Hand

end
-- ==== Proof.KIRuns.lean ====
/-
  What the body runs of the two kernels share: the first kernel's one branch condition (the row-tile coordinate is
  zero: the first tile of a batch, where the accumulator block is reset), decided over the 4 x 8 grid; a view through
  which an output block's contents are stated; and each window's current staging memref at a grid point.
-/
import proofs.«181825_j55095840473688_2_alg».proof.Proof.Gen.KernelIdeal.Launch
import proofs.«181825_j55095840473688_2_alg».proof.Proof.Gen.KernelIdeal.Skeleton
import proofs.«181825_j55095840473688_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first kernel's branch condition: the row-tile coordinate (grid axis 1) is zero. -/
abbrev cond0 (i : grid0.Coords) : Prop := (Scalar.cmpi .ne (Scalar.extui (Scalar.cmpi .eq (BitVec.ofNat 32 (i 1).val) 0#32)) 0#32) = 1#1
/-- It holds exactly at the first of each batch's eight row tiles. -/
theorem hcond0 : ∀ t : Fin cfg0.N, cond0 (grid0.coords t) ↔ t.val % 8 = 0 :=
  (by decide +kernel : ∀ t : Fin grid0.N, cond0 (grid0.coords t) ↔ t.val % 8 = 0)

/-- A view of one 128 x 128 accumulator block, and of one 8192 x 128 output block. -/
abbrev VO0 : View sig .tc .vmem S1x128x128 .f32 := (Memref.whole cc0_stg2_0 : Memref sig .tc .vmem S1x128x128 .f32).view
abbrev VO1 : View sig .tc .vmem S1x8192x128 .f32 := (Memref.whole cc1_stg2_0 : Memref sig .tc .vmem S1x8192x128 .f32).view

/-- Each window's current staging memref at a grid point, and that it is a whole buffer. -/
abbrev ms0_0 (t : Fin cfg0.N) : Memref sig .tc .vmem S1x8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
abbrev ms1_0 (t : Fin cfg1.N) : Memref sig .tc .vmem S1x8192x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192x128 .f32 := win1_2.stage (cfg1.slots t 2)
abbrev hs1_2 (t : Fin cfg1.N) : (ms1_2 t).IsWhole := hstage1_2 ((cfg1.slots t 2).cast nbuf1_2)

end Cert.KernelIdeal.Hand

end
-- ==== Proof.KIRun0A.lean ====
/-
  The first kernel's body, run on whole staging memrefs in the case where the row-tile coordinate is zero (the accumulator block is first set to zero):
  the two input blocks are left as they were and the accumulator block ends with the body's stores written, as a list
  of pieces the symbolic run finds.
-/
import proofs.«181825_j55095840473688_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : cond0 i)
    (x0 x1 : Vec F S1x8192x128 .f32) :
    { L : List (View.Piece (Elt F) S1x128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc0__kernelA_packed i arg2 harg2 arg3 harg3 arg4 harg4) K } := by
  refine ⟨?_, fun E K => ?run⟩
  case run =>
    simp only [cc0__kernelA_packed_eq_skeleton]; unfold cc0__kernelA_packed_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KIRun0B.lean ====
/-
  The first kernel's body, run on whole staging memrefs in the case where the row-tile coordinate is not zero (the accumulator block holds the partial sum of the earlier tiles):
  the two input blocks are left as they were and the accumulator block ends with the body's stores written, as a list
  of pieces the symbolic run finds.
-/
import proofs.«181825_j55095840473688_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : ¬cond0 i)
    (x0 x1 : Vec F S1x8192x128 .f32) (xo : Vec F S1x128x128 .f32) :
    { L : List (View.Piece (Elt F) S1x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc0__kernelA_packed i arg2 harg2 arg3 harg3 arg4 harg4) K } := by
  refine ⟨?_, fun E K => ?run⟩
  case run =>
    simp only [cc0__kernelA_packed_eq_skeleton]; unfold cc0__kernelA_packed_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KIRun1.lean ====
/-
  The second kernel's body, run on whole staging memrefs: the row block and the 128 x 128 weight block are left as
  they were and the output block ends with the body's one store written, as the piece the symbolic run finds.
-/
import proofs.«181825_j55095840473688_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1 (c : Dev nD) (i : grid1.Coords) (arg2 : Memref sig .tc .vmem S1x8192x128 .f32) (harg2 : arg2.IsWhole) (arg3 : Memref sig .tc .vmem S1x128x128 .f32) (harg3 : arg3.IsWhole) (arg4 : Memref sig .tc .vmem S1x8192x128 .f32) (harg4 : arg4.IsWhole)
    (x0 : Vec F S1x8192x128 .f32) (x1 : Vec F S1x128x128 .f32) :
    { L : List (View.Piece (Elt F) S1x8192x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L)) -∗ K ⟨⟩))
          ⊢ wp frame (wpE (defs₀ (F := F)) Variants.none c none) E (cc1__kernelB_packed i arg2 harg2 arg3 harg3 arg4 harg4) K } := by
  refine ⟨?_, fun E K => ?run⟩
  case run =>
    simp only [cc1__kernelB_packed_eq_skeleton]; unfold cc1__kernelB_packed_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KIRegions.lean ====
/-
  The run of the whole program: reshapes, the first kernel (a 4 x 8 grid accumulating, per batch, the 128 x 128 packed
  cross products of eight 8192-row tiles into one block), the host stretch that folds the four diagonal 32 x 32 blocks,
  takes the softmax and builds the block-diagonal weight matrix, the second kernel (a 4 x 8 grid, each point one
  8192 x 128 row block times the batch's 128 x 128 weights, added to the block), and the final reshape.

  Per kernel, at a parameter V (the buffer contents when the kernel is entered): each window's block at a grid point,
  what each output buffer holds after the body there, the proof data of the pipeline and the body obligation. For the
  first kernel the accumulator block after point n is, by recursion on n, the body's result over what point n - 1 left,
  reset at the first tile of each batch. Then the contents of every buffer at the six boundaries between the five
  segments, and the run: every execution terminates with every unscoped buffer at the last boundary's contents.
-/
import proofs.«181825_j55095840473688_2_alg».proof.Proof.KIRun0A
import proofs.«181825_j55095840473688_2_alg».proof.Proof.KIRun0B
import proofs.«181825_j55095840473688_2_alg».proof.Proof.KIRun1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # The first kernel, entered at the contents V -/

/-- Window w's block at grid point t, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The stores of either case tile the accumulator block. -/
theorem cover0_A (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : cond0 i)
    (x0 x1 : Vec F S1x8192x128 .f32) (y : S1x128x128.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x128x128.size (by sl_kernel_rfl) y
/-- What the first-tile case leaves in the accumulator block. -/
def out0_A (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : cond0 i)
    (x0 x1 : Vec F S1x8192x128 .f32) : Vec F S1x128x128 .f32 :=
  VO0.read (Elt F) (VO0.writes (Elt F) VO0.junk (kernelRun0_A c i arg2 harg2 arg3 harg3 arg4 harg4 hc0 x0 x1).1)
theorem cover0_B (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : ¬cond0 i)
    (x0 x1 : Vec F S1x8192x128 .f32) (xo : Vec F S1x128x128 .f32) (y : S1x128x128.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S1x128x128.size (by sl_kernel_rfl) y
/-- What a later-tile case leaves in the accumulator block, over what it held. -/
def out0_B (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : ¬cond0 i)
    (x0 x1 : Vec F S1x8192x128 .f32) (xo : Vec F S1x128x128 .f32) : Vec F S1x128x128 .f32 :=
  VO0.read (Elt F) (VO0.writes (Elt F) VO0.junk (kernelRun0_B c i arg2 harg2 arg3 harg3 arg4 harg4 hc0 x0 x1 xo).1)

/-- THE ACCUMULATION: the accumulator block after the body at position n. -/
def outsAt0 (c : Dev nD) : (n : ℕ) → n < cfg0.N → Vec F S1x128x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0 ⟨0, hn⟩).mpr (Nat.zero_mod _)) (iblk0 V c 0 ⟨0, hn⟩) (iblk0 V c 1 ⟨0, hn⟩)
  | n + 1, hn =>
    if h0 : (n + 1) % 8 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0 ⟨n + 1, hn⟩).mpr h0) (iblk0 V c 0 ⟨n + 1, hn⟩) (iblk0 V c 1 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn))

theorem outsAt0_A (c : Dev nD) (t : Fin cfg0.N) (h0 : t.val % 8 = 0) :
    outsAt0 V c t.val t.isLt = out0_A c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = out0_B c (grid0.coords t) (ms0_0 t) (hs0_0 t) (ms0_1 t) (hs0_1 t) (ms0_2 t) (hs0_2 t) (fun h => h0 ((hcond0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later tile the accumulator's staging buffer holds what the body left at the point before: it is written
    back only after a batch's last tile. -/
theorem before0_2_B (c : Dev nD) (t : Fin cfg0.N) (h0 : ¬t.val % 8 = 0) (d) :
    (dat0 V c).before 2 t d = outsAt0 V c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 32 := lt_of_lt_of_eq t.isLt (show cfg0.N = 32 from N_0)
  by_cases h0 : t.val % 8 = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-! # The second kernel, entered at the contents V -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem cover1 (c : Dev nD) (i : grid1.Coords) (arg2 : Memref sig .tc .vmem S1x8192x128 .f32) (harg2 : arg2.IsWhole) (arg3 : Memref sig .tc .vmem S1x128x128 .f32) (harg3 : arg3.IsWhole) (arg4 : Memref sig .tc .vmem S1x8192x128 .f32) (harg4 : arg4.IsWhole)
    (x0 : Vec F S1x8192x128 .f32) (x1 : Vec F S1x128x128 .f32) (y : S1x8192x128.Idx) :
    ∃ pc ∈ (kernelRun1 c i arg2 harg2 arg3 harg3 arg4 harg4 x0 x1).1, y ∈ pc.1.set :=
  View.cover_of_tiledL (kernelRun1 c i arg2 harg2 arg3 harg3 arg4 harg4 x0 x1).1 S1x8192x128.size (by sl_kernel_rfl) y
/-- What the body leaves in the output block. -/
def out1 (c : Dev nD) (i : grid1.Coords) (arg2 : Memref sig .tc .vmem S1x8192x128 .f32) (harg2 : arg2.IsWhole) (arg3 : Memref sig .tc .vmem S1x128x128 .f32) (harg3 : arg3.IsWhole) (arg4 : Memref sig .tc .vmem S1x8192x128 .f32) (harg4 : arg4.IsWhole)
    (x0 : Vec F S1x8192x128 .f32) (x1 : Vec F S1x128x128 .f32) : Vec F S1x8192x128 .f32 :=
  VO1.read (Elt F) (VO1.writes (Elt F) VO1.junk (kernelRun1 c i arg2 harg2 arg3 harg3 arg4 harg4 x0 x1).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 c (grid1.coords t) (ms1_0 t) (hs1_0 t) (ms1_1 t) (hs1_1 t) (ms1_2 t) (hs1_2 t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 c (grid1.coords t) (ms1_0 t) (hs1_0 t) (ms1_1 t) (hs1_1 t) (ms1_2 t) (hs1_2 t) (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1 c _ _ _ _ _ _ _ _ _)

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIFrame.lean ====
/-
  The run of the whole program from the two kernels' halves: the contents of every buffer at the six boundaries
  between @main's five segments (a fold from the launch memory: a host stretch applies its operations, a kernel
  leaves its arrays at what its write-backs make of them and every other buffer as it found it), the two kernels
  as segments, and the launch. Every execution terminates with every unscoped buffer at the last boundary's
  contents; the argument arrays read back through the fold are the launch contents.
-/
import proofs.«181825_j55095840473688_2_alg».proof.Proof.KIRegions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps2 (W4 m ρ c)

/-! ### The arguments end as launched: no host operation writes one and no kernel has one among its arrays -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The kernels as segments -/

set_option backward.isDefEq.respectTransparency.types false in
/-- Kernel 0 as a segment: entered from every unscoped buffer at one boundary's contents, left at the next one's. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: entered from every unscoped buffer at one boundary's contents, left at the next one's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => show (iprop(StableHlo.held (c : Thread nD τ) (Pipeline.ucRefs τ sig) (StableHlo.after hostOps2 (W4 m ρ c)) ∗ R c) : sProp 𝕄)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME at any instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

end Cert.KernelIdeal.Hand

end
-- ==== Proof.KIPieces.lean ====
/-
  What each body leaves in its output block, as the body's arithmetic of the blocks it loaded: the stores found by the
  symbolic run are whole-block stores, so the last one's payload is what the block holds. In the first kernel's
  first-tile case the accumulator read back after the zero store is the zero block.
-/
import proofs.«181825_j55095840473688_2_alg».proof.Proof.KIRegions
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-- A later tile: the accumulator block xo becomes xo plus the product of the two row blocks. -/
theorem out0_B_eq (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : ¬cond0 i)
    (x0 x1 : Vec F S1x8192x128 .f32) (xo : Vec F S1x128x128 .f32) :
    out0_B c i arg2 harg2 arg3 harg3 arg4 harg4 hc0 x0 x1 xo = k0_pay2 x0 x1 xo := by
  unfold out0_B
  rw [View.read_writes_eq_canon _ _ _ (cover0_B c i arg2 harg2 arg3 harg3 arg4 harg4 hc0 x0 x1 xo)]
  unfold kernelRun0_B
  dsimp only
  rw [View.canon_unit_zero hz3]
  simp only [View.readAt_eq_ld, harg2.read_unread, harg3.read_unread, harg4.read_unread, View.ld_unit_zero (S := S1x8192x128) hz3, View.ld_unit_zero (S := S1x128x128) hz3]

/-- The second kernel: the output block is the body's arithmetic of the row block and the weight block. -/
theorem out1_eq (c : Dev nD) (i : grid1.Coords) (arg2 : Memref sig .tc .vmem S1x8192x128 .f32) (harg2 : arg2.IsWhole) (arg3 : Memref sig .tc .vmem S1x128x128 .f32) (harg3 : arg3.IsWhole) (arg4 : Memref sig .tc .vmem S1x8192x128 .f32) (harg4 : arg4.IsWhole)
    (x0 : Vec F S1x8192x128 .f32) (x1 : Vec F S1x128x128 .f32) :
    out1 c i arg2 harg2 arg3 harg3 arg4 harg4 x0 x1 = k1_pay1 x0 x1 := by
  unfold out1
  rw [View.read_writes_eq_canon _ _ _ (cover1 c i arg2 harg2 arg3 harg3 arg4 harg4 x0 x1)]
  unfold kernelRun1
  dsimp only
  rw [View.canon_unit_zero hz3]
  simp only [View.readAt_eq_ld, harg2.read_unread, harg3.read_unread, View.ld_unit_zero (S := S1x8192x128) hz3, View.ld_unit_zero (S := S1x128x128) hz3]

/-- The first tile: the accumulator block becomes the zero block plus the product of the two row blocks. -/
theorem out0_A_eq (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x128x128 .f32) (harg4 : arg4.IsWhole) (hc0 : cond0 i)
    (x0 x1 : Vec F S1x8192x128 .f32) :
    out0_A c i arg2 harg2 arg3 harg3 arg4 harg4 hc0 x0 x1 = k0_pay2 x0 x1 (k0_pay1 (F := F)) := by
  unfold out0_A
  rw [View.read_writes_eq_canon _ _ _ (cover0_A c i arg2 harg2 arg3 harg3 arg4 harg4 hc0 x0 x1)]
  unfold kernelRun0_A
  dsimp only
  sl_unfold_run_names
  rw [View.canon_cons_unit_zero hz3, View.readCov_unit_zero _ hz3]
  simp only [View.readAt_eq_ld, harg2.read_unread, harg3.read_unread, View.ld_unit_zero (S := S1x8192x128) hz3]

end Cert.KernelIdeal.Hand

end
-- ==== Proof.KIPay.lean ====
/- The kernel bodies' arithmetic read at an index, at the ideal values (a float is an extended real, a
   rounding conversion is the identity, every operation is exact).

   * The first body's initial store is the zero array.
   * The first body's accumulating store: with the leading unit axis dropped from both operands, the
     matrix product contracting axis 0 of both operands into the zero accumulator, and the unit axis
     put back, entry (0, A, B) is the old entry plus the sum over the 8192 rows r of
     x0(0, r, A) * x1(0, r, B).
   * The second body's store: entry (0, r, B) is x0(0, r, B) plus the sum over A of
     x0(0, r, A) * x1(0, A, B) (axis 1 of the left operand contracted with axis 0 of the right). -/
import proofs.«181825_j55095840473688_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayVal

open Cert.KernelIdeal Cert.KernelIdeal.Gen Idealize.ShloMosaic Idealize.ShloMosaic.ValueIdx Idealize.ShloMosaic.TcCoe Idealize.SL.Sem

/-- The first body's initial store is the zero array. -/
theorem pay1_apply (j : S1x128x128.Idx) : k0_pay1 (F := Ideal) j = 0 := by
  unfold k0_pay1
  exact Ideal.ofBits_zero_f32

/-! ## The first matrix product's operand indices -/

/-- Left operand, axis 0 (contracted): the contraction position. -/
theorem lhsA_0 (i : S128x128.Idx) (q : dot_S8192x128_S8192x128_S128x128_0_0_1_1_n_n.contr.Idx) :
    (dot_S8192x128_S8192x128_S128x128_0_0_1_1_n_n.lhsIdx i q 0).val = (q ⟨0, by decide⟩).val :=
  dot_S8192x128_S8192x128_S128x128_0_0_1_1_n_n.lhsIdx_val_of_single rfl i q

/-- Left operand, axis 1 (free): the output's row coordinate. -/
theorem lhsA_1 (i : S128x128.Idx) (q : dot_S8192x128_S8192x128_S128x128_0_0_1_1_n_n.contr.Idx) :
    (dot_S8192x128_S8192x128_S128x128_0_0_1_1_n_n.lhsIdx i q 1).val = (i 0).val := by
  unfold DotDims.lhsIdx
  rw [dif_neg (show ¬(1 : Fin S8192x128.rank) ∈ dot_S8192x128_S8192x128_S128x128_0_0_1_1_n_n.lhsBatch by decide), dif_pos (show (1 : Fin S8192x128.rank) ∈ dot_S8192x128_S8192x128_S128x128_0_0_1_1_n_n.lhsNonContracting by decide)]
  rfl

/-- Right operand, axis 0 (contracted): the contraction position. -/
theorem rhsA_0 (i : S128x128.Idx) (q : dot_S8192x128_S8192x128_S128x128_0_0_1_1_n_n.contr.Idx) :
    (dot_S8192x128_S8192x128_S128x128_0_0_1_1_n_n.rhsIdx i q 0).val = (q ⟨0, by decide⟩).val :=
  dot_S8192x128_S8192x128_S128x128_0_0_1_1_n_n.rhsIdx_val_of_single rfl i q

/-- Right operand, axis 1 (free): the output's column coordinate. -/
theorem rhsA_1 (i : S128x128.Idx) (q : dot_S8192x128_S8192x128_S128x128_0_0_1_1_n_n.contr.Idx) :
    (dot_S8192x128_S8192x128_S128x128_0_0_1_1_n_n.rhsIdx i q 1).val = (i 1).val := by
  unfold DotDims.rhsIdx
  rw [dif_neg (show ¬(1 : Fin S8192x128.rank) ∈ dot_S8192x128_S8192x128_S128x128_0_0_1_1_n_n.rhsBatch by decide), dif_pos (show (1 : Fin S8192x128.rank) ∈ dot_S8192x128_S8192x128_S128x128_0_0_1_1_n_n.rhsNonContracting by decide)]
  rfl

/-- The first body's accumulating store at entry (0, A, B). -/
theorem pay2_apply (x0 x1 : Vec Ideal S1x8192x128 .f32) (xo : Vec Ideal S1x128x128 .f32) (A B : Fin 128) :
    k0_pay2 (F := Ideal) x0 x1 xo (ix3 0 A B)
      = xo (ix3 0 A B) + ∑ r : Fin 8192, x0 (ix3 0 r A) * x1 (ix3 0 r B) := by
  unfold k0_pay2
  rw [addf_apply, shapeCast_self, shapeCast_ab_1ab_apply]
  simp only [matmul]
  rw [Ideal.matmul_constant_zero_apply,
    ← Equiv.sum_comp (contrEquiv1 dot_S8192x128_S8192x128_S128x128_0_0_1_1_n_n 8192 rfl rfl).symm]
  refine congrArg (xo (ix3 0 A B) + ·) (Finset.sum_congr rfl fun k _ => ?_)
  have hk := contrEquiv1_symm_val dot_S8192x128_S8192x128_S128x128_0_0_1_1_n_n 8192 rfl rfl k
  have el : dot_S8192x128_S8192x128_S128x128_0_0_1_1_n_n.lhsIdx (ix2 A B)
      ((contrEquiv1 dot_S8192x128_S8192x128_S128x128_0_0_1_1_n_n 8192 rfl rfl).symm k) = ix2 k A :=
    funext fun a => Fin.ext (by
      match a with
      | ⟨0, _⟩ => exact (lhsA_0 _ _).trans hk
      | ⟨1, _⟩ => exact lhsA_1 _ _)
  have er : dot_S8192x128_S8192x128_S128x128_0_0_1_1_n_n.rhsIdx (ix2 A B)
      ((contrEquiv1 dot_S8192x128_S8192x128_S128x128_0_0_1_1_n_n 8192 rfl rfl).symm k) = ix2 k B :=
    funext fun a => Fin.ext (by
      match a with
      | ⟨0, _⟩ => exact (rhsA_0 _ _).trans hk
      | ⟨1, _⟩ => exact rhsA_1 _ _)
  rw [el, er, truncf_apply, truncf_apply, shapeCast_1ab_ab_apply, shapeCast_1ab_ab_apply]

/-! ## The second matrix product's operand indices -/

/-- Left operand, axis 0 (free): the output's row coordinate. -/
theorem lhsB_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl

/-- Left operand, axis 1 (contracted): the contraction position. -/
theorem lhsB_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q

/-- Right operand, axis 0 (contracted): the contraction position. -/
theorem rhsB_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q

/-- Right operand, axis 1 (free): the output's column coordinate. -/
theorem rhsB_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The second body's store at entry (0, r, B). -/
theorem pay1B_apply (x0 : Vec Ideal S1x8192x128 .f32) (x1 : Vec Ideal S1x128x128 .f32) (r : Fin 8192) (B : Fin 128) :
    k1_pay1 (F := Ideal) x0 x1 (ix3 0 r B)
      = x0 (ix3 0 r B) + ∑ A : Fin 128, x0 (ix3 0 r A) * x1 (ix3 0 A B) := by
  unfold k1_pay1
  rw [shapeCast_ab_1ab_apply, addf_apply, shapeCast_1ab_ab_apply]
  simp only [matmul]
  rw [Ideal.matmul_constant_zero_apply,
    ← Equiv.sum_comp (contrEquiv1 dot_S8192x128_S128x128_S8192x128_1_0_0_1_n_n 128 rfl rfl).symm]
  refine congrArg (x0 (ix3 0 r B) + ·) (Finset.sum_congr rfl fun k _ => ?_)
  have hk := contrEquiv1_symm_val dot_S8192x128_S128x128_S8192x128_1_0_0_1_n_n 128 rfl rfl k
  have el : dot_S8192x128_S128x128_S8192x128_1_0_0_1_n_n.lhsIdx (ix2 r B)
      ((contrEquiv1 dot_S8192x128_S128x128_S8192x128_1_0_0_1_n_n 128 rfl rfl).symm k) = ix2 r k :=
    funext fun a => Fin.ext (by
      match a with
      | ⟨0, _⟩ => exact lhsB_0 _ _
      | ⟨1, _⟩ => exact (lhsB_1 _ _).trans hk)
  have er : dot_S8192x128_S128x128_S8192x128_1_0_0_1_n_n.rhsIdx (ix2 r B)
      ((contrEquiv1 dot_S8192x128_S128x128_S8192x128_1_0_0_1_n_n 128 rfl rfl).symm k) = ix2 k B :=
    funext fun a => Fin.ext (by
      match a with
      | ⟨0, _⟩ => exact (rhsB_0 _ _).trans hk
      | ⟨1, _⟩ => exact rhsB_1 _ _)
  rw [el, er, truncf_apply, truncf_apply, shapeCast_1ab_ab_apply, shapeCast_1ab_ab_apply]

end Cert.KernelIdeal.PayVal

end
-- ==== Proof.KIValue0.lean ====
/-
  The first kernel's output array after the region, at the exact instance, as one function of the two packed input
  arrays: entry (b, A, B) is the sum over the batch's eight row tiles t and the 8192 rows r of a tile of
  qp[b, 8192 t + r, A] * kp[b, 8192 t + r, B].

  Grid position n is batch n / 8, tile n % 8. After position n the accumulator block holds the sum of the tiles
  0 .. n % 8 of batch n / 8 (induction on n: the first tile starts from the zero block, a later tile adds to what the
  position before left). The block is written back after each batch's last tile, and those four blocks tile the array.
-/
import proofs.«181825_j55095840473688_2_alg».proof.Proof.KIPieces
import proofs.«181825_j55095840473688_2_alg».proof.Proof.KIPay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.KernelIdeal.PayVal

variable (V : (c : Dev nD) → (b : Ref sig .tc) → Buf (Elt Ideal) ((c : Thread nD τ).loc b))

/-- The block indices of the three windows at grid position t: batch t / 8, tile t % 8. -/
theorem idx0 : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- Row r, lane A of the first input block at position t is row 8192 (t % 8) + r of batch t / 8. -/
theorem blk0_0 (c : Dev nD) (t : Fin cfg0.N) (r : Fin 8192) (A : Fin 128) (b : Fin 4) (mm : Fin 65536)
    (hb : b.val = t.val / 8) (hm : mm.val = 8192 * (t.val % 8) + r.val) :
    iblk0 V c 0 t (ix3 (0 : Fin 1) r A) = V c main_v2 (ix3 b mm A) := by
  obtain ⟨e0, e1, e2, -⟩ := idx0 t
  show V c main_v2 (((cfg0.win 0).blk t).view.emb (ix3 (0 : Fin 1) r A)) = _
  refine congrArg (V c main_v2) (funext fun a => Fin.ext ?_)
  match a with
  | ⟨0, _⟩ => show win0_0.index t (0 : Fin 3) * 1 + 1 * 0 = b.val; omega
  | ⟨1, _⟩ => show win0_0.index t (1 : Fin 3) * 8192 + 1 * r.val = mm.val; omega
  | ⟨2, _⟩ => show win0_0.index t (2 : Fin 3) * 128 + 1 * A.val = A.val; omega
theorem blk0_1 (c : Dev nD) (t : Fin cfg0.N) (r : Fin 8192) (A : Fin 128) (b : Fin 4) (mm : Fin 65536)
    (hb : b.val = t.val / 8) (hm : mm.val = 8192 * (t.val % 8) + r.val) :
    iblk0 V c 1 t (ix3 (0 : Fin 1) r A) = V c main_v3 (ix3 b mm A) := by
  obtain ⟨-, -, -, e0, e1, e2, -⟩ := idx0 t
  show V c main_v3 (((cfg0.win 1).blk t).view.emb (ix3 (0 : Fin 1) r A)) = _
  refine congrArg (V c main_v3) (funext fun a => Fin.ext ?_)
  match a with
  | ⟨0, _⟩ => show win0_1.index t (0 : Fin 3) * 1 + 1 * 0 = b.val; omega
  | ⟨1, _⟩ => show win0_1.index t (1 : Fin 3) * 8192 + 1 * r.val = mm.val; omega
  | ⟨2, _⟩ => show win0_1.index t (2 : Fin 3) * 128 + 1 * A.val = A.val; omega

/-- One tile's contribution: the product of the two row blocks contracted over the tile's 8192 rows. -/
def part (qp kp : FVec Ideal S4x65536x128 .f32) (b : Fin 4) (t : Fin 8) (A B : Fin 128) : EReal :=
  ∑ r : Fin 8192, qp (ix3 b (⟨8192 * t.val + r.val, by have := t.isLt; have := r.isLt; omega⟩ : Fin 65536) A)
    * kp (ix3 b (⟨8192 * t.val + r.val, by have := t.isLt; have := r.isLt; omega⟩ : Fin 65536) B)

/-- The first kernel's array: all eight tiles of the batch. -/
def G0 (qp kp : FVec Ideal S4x65536x128 .f32) : FVec Ideal S4x128x128 .f32 :=
  fun j => ∑ t : Fin 8, part qp kp (j 0) t (j 1) (j 2)

section Sums
variable {M : Type} [AddCommMonoid M] (f : Fin 8 → M)
theorem sum_le_zero : (∑ t : Fin 8, if t.val ≤ 0 then f t else 0) = f 0 := by
  rw [Finset.sum_eq_single (0 : Fin 8) (fun t _ hne => if_neg (fun h => hne (Fin.ext (by simpa using h))))
    (fun h => absurd (Finset.mem_univ _) h)]
  exact if_pos (le_refl _)
theorem sum_le_succ (k : ℕ) (hk : k + 1 < 8) :
    (∑ t : Fin 8, if t.val ≤ k + 1 then f t else 0) = (∑ t : Fin 8, if t.val ≤ k then f t else 0) + f ⟨k + 1, hk⟩ := by
  have e : ∀ t : Fin 8, (if t.val ≤ k + 1 then f t else 0)
      = (if t.val ≤ k then f t else 0) + (if t = (⟨k + 1, hk⟩ : Fin 8) then f t else 0) := by
    intro t
    by_cases h1 : t.val ≤ k
    · have h2 : t ≠ (⟨k + 1, hk⟩ : Fin 8) := fun e => by rw [e] at h1; simp at h1
      rw [if_pos (by omega), if_pos h1, if_neg h2, add_zero]
    · by_cases h3 : t.val = k + 1
      · rw [if_pos (by omega), if_neg h1, if_pos (Fin.ext h3), zero_add]
      · have h2 : t ≠ (⟨k + 1, hk⟩ : Fin 8) := fun e => h3 (by rw [e])
        rw [if_neg (by omega), if_neg h1, if_neg h2, add_zero]
  rw [Finset.sum_congr rfl (fun t _ => e t), Finset.sum_add_distrib, Finset.sum_ite_eq' Finset.univ (⟨k + 1, hk⟩ : Fin 8) f,
    if_pos (Finset.mem_univ _)]
theorem sum_le_seven : (∑ t : Fin 8, if t.val ≤ 7 then f t else 0) = ∑ t : Fin 8, f t :=
  Finset.sum_congr rfl fun t _ => if_pos (by have := t.isLt; omega)
end Sums

/-- A product of two row blocks that are tile k of batch b is that tile's contribution. -/
theorem tile_eq (qp kp : FVec Ideal S4x65536x128 .f32) (x0 x1 : Vec Ideal S1x8192x128 .f32) (b : Fin 4) (k : Fin 8)
    (h0 : ∀ (r : Fin 8192) (A : Fin 128), x0 (ix3 (0 : Fin 1) r A) = qp (ix3 b (⟨8192 * k.val + r.val, by have := k.isLt; have := r.isLt; omega⟩ : Fin 65536) A))
    (h1 : ∀ (r : Fin 8192) (A : Fin 128), x1 (ix3 (0 : Fin 1) r A) = kp (ix3 b (⟨8192 * k.val + r.val, by have := k.isLt; have := r.isLt; omega⟩ : Fin 65536) A))
    (A B : Fin 128) :
    (∑ r : Fin 8192, x0 (ix3 (0 : Fin 1) r A) * x1 (ix3 (0 : Fin 1) r B)) = part qp kp b k A B := by
  unfold part
  exact Finset.sum_congr rfl fun r _ => by rw [h0, h1]

/-- THE ACCUMULATION, read: after position n the block holds the tiles 0 .. n % 8 of batch n / 8. -/
theorem acc_eq (c : Dev nD) : ∀ (n : ℕ) (hn : n < cfg0.N) (b : Fin 4) (hb : b.val = n / 8) (A B : Fin 128),
    outsAt0 V c n hn (ix3 (0 : Fin 1) A B)
      = ∑ t : Fin 8, if t.val ≤ n % 8 then part (V c main_v2) (V c main_v3) b t A B else 0 := by
  have tile_at := fun (t : Fin cfg0.N) (b : Fin 4) (k : Fin 8) (hb : b.val = t.val / 8) (hk : k.val = t.val % 8) (A B : Fin 128) =>
    tile_eq (V c main_v2) (V c main_v3) (iblk0 V c 0 t) (iblk0 V c 1 t) b k
      (fun r A => blk0_0 V c t r A b _ hb (by show 8192 * k.val + r.val = _; omega))
      (fun r A => blk0_1 V c t r A b _ hb (by show 8192 * k.val + r.val = _; omega)) A B
  intro n
  induction n with
  | zero =>
    intro hn b hb A B
    rw [show outsAt0 V c 0 hn = _ from outsAt0_A V c ⟨0, hn⟩ rfl, out0_A_eq, pay2_apply, pay1_apply, zero_add,
      tile_at ⟨0, hn⟩ b 0 hb rfl A B]
    exact (sum_le_zero (fun t : Fin 8 => part (V c main_v2) (V c main_v3) b t A B)).symm
  | succ n ih =>
    intro hn b hb A B
    have hN : n + 1 < 32 := lt_of_lt_of_eq hn N_0
    by_cases h0 : (n + 1) % 8 = 0
    · rw [show outsAt0 V c (n + 1) hn = _ from outsAt0_A V c ⟨n + 1, hn⟩ h0, out0_A_eq, pay2_apply, pay1_apply, zero_add,
        tile_at ⟨n + 1, hn⟩ b 0 hb (by show (0 : ℕ) = (n + 1) % 8; omega) A B, h0]
      exact (sum_le_zero (fun t : Fin 8 => part (V c main_v2) (V c main_v3) b t A B)).symm
    · obtain ⟨k, hk⟩ := Nat.exists_eq_succ_of_ne_zero h0
      have hk8 : k + 1 < 8 := by omega
      rw [show outsAt0 V c (n + 1) hn = _ from outsAt0_B V c ⟨n + 1, hn⟩ h0, out0_B_eq, pay2_apply,
        tile_at ⟨n + 1, hn⟩ b ⟨k + 1, hk8⟩ hb (by show k + 1 = (n + 1) % 8; omega) A B]
      have e := ih (Nat.lt_of_succ_lt hn) b (by rw [hb]; omega) A B
      have hk' : (n + 1) % 8 = k + 1 := hk
      have hn8 : n % 8 = k := by omega
      show outsAt0 V c n (Nat.lt_of_succ_lt hn) (ix3 (0 : Fin 1) A B) + _ = _
      rw [e, hk', hn8]
      exact (sum_le_succ (fun t : Fin 8 => part (V c main_v2) (V c main_v3) b t A B) k hk8).symm

/-- An index of the array is in position t's block iff each coordinate is in the block's range. -/
theorem mem_blk0 (t : Fin cfg0.N) (i : S4x128x128.Idx) :
    i ∈ ((cfg0.win 2).blk t).view.set ↔ ∀ a : Fin 3, win0_2.index t a * S1x128x128.size a ≤ (i a).val ∧ (i a).val < win0_2.index t a * S1x128x128.size a + S1x128x128.size a := by
  show i ∈ ((View.whole main_v4).slice (win0_2.rect t)).set ↔ _
  rw [View.set_slice_whole, Rect.mem_set_unit]
  exact Iff.rfl

/-- WHAT A BATCH'S LAST TILE WRITES BACK is that batch's block of G0. -/
theorem flushed0_eq (c : Dev nD) (t : Fin cfg0.N) (hf : (cfg0.win 2).flush t = true) :
    (dat0 V c).flushed 2 t = ((cfg0.win 2).blk t).view.read (Elt Ideal) (G0 (V c main_v2) (V c main_v3)) := by
  have h7 : t.val % 8 = 7 := (flush0_2 t).mp hf
  have hN : t.val < 32 := lt_of_lt_of_eq t.isLt N_0
  obtain ⟨-, -, -, -, -, -, e0, e1, e2⟩ := idx0 t
  show (cfg0.win 2).cut (grid0.coords t) ((dat0 V c).after 2 t) = _
  rw [after0_2]
  funext (y : S1x128x128.Idx)
  obtain ⟨A, B, rfl⟩ : ∃ (A B : Fin 128), y = ix3 (0 : Fin 1) A B := ⟨y 1, y 2, by
    funext a; match a with
    | ⟨0, _⟩ => exact Fin.ext (by have : (y 0).val < 1 := (y 0).isLt; show (y 0).val = 0; omega)
    | ⟨1, _⟩ => rfl
    | ⟨2, _⟩ => rfl⟩
  show outsAt0 V c t.val t.isLt (ix3 (0 : Fin 1) A B) = G0 (V c main_v2) (V c main_v3) (((cfg0.win 2).blk t).view.emb (ix3 (0 : Fin 1) A B))
  have he : ((cfg0.win 2).blk t).view.emb (ix3 (0 : Fin 1) A B) = ix3 (⟨t.val / 8, by omega⟩ : Fin 4) A B := by
    funext a; apply Fin.ext
    match a with
    | ⟨0, _⟩ => show win0_2.index t (0 : Fin 3) * 1 + 1 * 0 = t.val / 8; omega
    | ⟨1, _⟩ => show win0_2.index t (1 : Fin 3) * 128 + 1 * A.val = A.val; omega
    | ⟨2, _⟩ => show win0_2.index t (2 : Fin 3) * 128 + 1 * B.val = B.val; omega
  rw [he, acc_eq V c t.val t.isLt ⟨t.val / 8, by omega⟩ rfl A B, h7,
    sum_le_seven (fun k : Fin 8 => part (V c main_v2) (V c main_v3) (⟨t.val / 8, by omega⟩ : Fin 4) k A B)]
  rfl

/-- The four written-back blocks tile the array. -/
theorem cover0 (i : S4x128x128.Idx) : ∃ t : Fin cfg0.N, (cfg0.win 2).flush t = true ∧ i ∈ ((cfg0.win 2).blk t).view.set := by
  have h0 : (i 0).val < 4 := (i 0).isLt
  have h1 : (i 1).val < 128 := (i 1).isLt
  have h2 : (i 2).val < 128 := (i 2).isLt
  refine ⟨⟨8 * (i 0).val + 7, by rw [show cfg0.N = 32 from N_0]; omega⟩, (flush0_2 _).mpr (by show (8 * (i 0).val + 7) % 8 = 7; omega), ?_⟩
  rw [mem_blk0]
  obtain ⟨-, -, -, -, -, -, e0, e1, e2⟩ := idx0 ⟨8 * (i 0).val + 7, by rw [show cfg0.N = 32 from N_0]; omega⟩
  intro a
  match a with
  | ⟨0, _⟩ => show win0_2.index _ (0 : Fin 3) * 1 ≤ (i 0).val ∧ (i 0).val < win0_2.index _ (0 : Fin 3) * 1 + 1; rw [e0]; show (8 * (i 0).val + 7) / 8 * 1 ≤ _ ∧ _ < (8 * (i 0).val + 7) / 8 * 1 + 1; omega
  | ⟨1, _⟩ => show win0_2.index _ (1 : Fin 3) * 128 ≤ (i 1).val ∧ (i 1).val < win0_2.index _ (1 : Fin 3) * 128 + 128; rw [e1]; omega
  | ⟨2, _⟩ => show win0_2.index _ (2 : Fin 3) * 128 ≤ (i 2).val ∧ (i 2).val < win0_2.index _ (2 : Fin 3) * 128 + 128; rw [e2]; omega

/-- THE ARRAY after the first kernel. -/
theorem final0 (c : Dev nD) : (dat0 V c).arrAt 2 cfg0.N = G0 (V c main_v2) (V c main_v3) :=
  (dat0 V c).arrAt_eq_of_cover 2 (G0 (V c main_v2) (V c main_v3)) (fun t hf => flushed0_eq V c t hf) cover0

end Cert.KernelIdeal.Hand

end
-- ==== Proof.KIValue1.lean ====
/-
  The second kernel's output array as one function of the arrays it reads. The grid is 4 x 8; point t = 8 b + u reads
  rows 8192 u … 8192 u + 8191 of batch b of the packed array (a 1 x 8192 x 128 block) and the 128 x 128 weight matrix
  of batch b, and writes the same rows of the output: each row plus its product with the weights. The 32 output
  blocks tile the [4, 65536, 128] array, so the array ends holding, at (b, m, B),
    qp[b, m, B] + Σ_A qp[b, m, A] · w4[b, A, B].
  Stated over two hypotheses: what the body leaves in its output block is its payload of the two input blocks, and
  the payload at an entry is the row entry plus the row's product with the weights' column.
-/
import proofs.«181825_j55095840473688_2_alg».proof.Proof.KIRegions
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Value1
variable (V : (c : Dev nD) → (b : Ref sig .tc) → Buf (Elt Ideal) ((c : Thread nD τ).loc b))

/-- Row m of batch b of the packed array plus its product with the batch's 128 x 128 weight matrix. -/
def G1 (qp : FVec Ideal S4x65536x128 .f32) (w4 : FVec Ideal S4x128x128 .f32) : FVec Ideal S4x65536x128 .f32 :=
  fun j => qp j + ∑ A : Fin 128, qp (ix3 (j 0 : Fin 4) (j 1 : Fin 65536) A) * w4 (ix3 (j 0 : Fin 4) A (j 2 : Fin 128))

/-- The grid has 32 points. -/
theorem point_lt (t : Fin cfg1.N) : t.val < 32 := lt_of_lt_of_eq t.isLt (show cfg1.N = 32 from N_1)

/-- The block indices of the three windows at point t = 8 b + u: (b, u, 0), (b, 0, 0), (b, u, 0). -/
theorem idx_facts1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = t.val % 8 ∧ win1_2.index t (2 : Fin 3) = 0 :=
  (by decide +kernel : ∀ t : Fin grid1.N, _)

/-- The row block at point t: entry (0, r, A) is the packed array's entry (t / 8, 8192 (t mod 8) + r, A). -/
theorem iblk1_0_apply (c : Dev nD) (t : Fin cfg1.N) (r : Fin 8192) (A : Fin 128) :
    (iblk1 V c 0 t : Vec Ideal S1x8192x128 .f32) (ix3 (0 : Fin 1) r A)
      = (V c main_v2 : S4x65536x128.Idx → EReal)
          (ix3 (⟨t.val / 8, by have := point_lt t; omega⟩ : Fin 4) (⟨8192 * (t.val % 8) + r.val, by omega⟩ : Fin 65536) A) := by
  obtain ⟨e0, e1, e2, -⟩ := idx_facts1 t
  unfold iblk1
  rw [View.read_apply]
  show V c main_v2 _ = V c main_v2 _
  congr 1
  funext a
  apply Fin.ext
  match a with
  | ⟨0, _⟩ => show win1_0.index t (0 : Fin 3) * 1 + 1 * 0 = t.val / 8; rw [e0]; omega
  | ⟨1, _⟩ => show win1_0.index t (1 : Fin 3) * 8192 + 1 * r.val = 8192 * (t.val % 8) + r.val; rw [e1]; omega
  | ⟨2, _⟩ => show win1_0.index t (2 : Fin 3) * 128 + 1 * A.val = A.val; rw [e2]; omega

/-- The weight block at point t is the weight matrix of batch t / 8. -/
theorem iblk1_1_apply (c : Dev nD) (t : Fin cfg1.N) (A B : Fin 128) :
    (iblk1 V c 1 t : Vec Ideal S1x128x128 .f32) (ix3 (0 : Fin 1) A B)
      = (V c main_v31 : S4x128x128.Idx → EReal) (ix3 (⟨t.val / 8, by have := point_lt t; omega⟩ : Fin 4) A B) := by
  obtain ⟨-, -, -, e0, e1, e2, -⟩ := idx_facts1 t
  unfold iblk1
  rw [View.read_apply]
  show V c main_v31 _ = V c main_v31 _
  congr 1
  funext a
  apply Fin.ext
  match a with
  | ⟨0, _⟩ => show win1_1.index t (0 : Fin 3) * 1 + 1 * 0 = t.val / 8; rw [e0]; omega
  | ⟨1, _⟩ => show win1_1.index t (1 : Fin 3) * 128 + 1 * A.val = A.val; rw [e1]; omega
  | ⟨2, _⟩ => show win1_1.index t (2 : Fin 3) * 128 + 1 * B.val = B.val; rw [e2]; omega

/-- An entry of the output block at point t sits in the array at (t / 8, 8192 (t mod 8) + its row, its lane). -/
theorem oblk1_emb (t : Fin cfg1.N) (j : S1x8192x128.Idx) :
    ((cfg1.win 2).blk t).view.emb j
      = ix3 (⟨t.val / 8, by have := point_lt t; omega⟩ : Fin 4)
          (⟨8192 * (t.val % 8) + (j 1).val, by have := point_lt t; have h1 : (j 1).val < 8192 := (j 1).isLt; omega⟩ : Fin 65536) (j 2 : Fin 128) := by
  obtain ⟨-, -, -, -, -, -, e0, e1, e2⟩ := idx_facts1 t
  funext a
  apply Fin.ext
  have h0 : (j 0).val < 1 := (j 0).isLt
  match a with
  | ⟨0, _⟩ => show win1_2.index t (0 : Fin 3) * 1 + 1 * (j 0).val = t.val / 8; rw [e0]; omega
  | ⟨1, _⟩ => show win1_2.index t (1 : Fin 3) * 8192 + 1 * (j 1).val = 8192 * (t.val % 8) + (j 1).val; rw [e1]; omega
  | ⟨2, _⟩ => show win1_2.index t (2 : Fin 3) * 128 + 1 * (j 2).val = (j 2).val; rw [e2]; omega

/-- The body's result on a row block and a weight block that are blocks of qp and w4 is the block of G1 qp w4. -/
theorem pay_G1
    (hpay : ∀ (x0 : Vec Ideal S1x8192x128 .f32) (x1 : Vec Ideal S1x128x128 .f32) (r : Fin 8192) (B : Fin 128),
      k1_pay1 (F := Ideal) x0 x1 (ix3 0 r B) = x0 (ix3 0 r B) + ∑ A : Fin 128, x0 (ix3 0 r A) * x1 (ix3 0 A B))
    (x0 : Vec Ideal S1x8192x128 .f32) (x1 : Vec Ideal S1x128x128 .f32)
    (qp : FVec Ideal S4x65536x128 .f32) (w4 : FVec Ideal S4x128x128 .f32) (b : Fin 4) (u : ℕ) (hu : u < 8)
    (hx0 : ∀ (r : Fin 8192) (A : Fin 128), x0 (ix3 (0 : Fin 1) r A) = qp (ix3 b (⟨8192 * u + r.val, by omega⟩ : Fin 65536) A))
    (hx1 : ∀ A B : Fin 128, x1 (ix3 (0 : Fin 1) A B) = w4 (ix3 b A B))
    (r : Fin 8192) (B : Fin 128) :
    k1_pay1 (F := Ideal) x0 x1 (ix3 (0 : Fin 1) r B) = G1 qp w4 (ix3 b (⟨8192 * u + r.val, by omega⟩ : Fin 65536) B) := by
  rw [hpay, hx0]
  show _ = qp (ix3 b ⟨8192 * u + r.val, _⟩ B) + ∑ A : Fin 128, qp (ix3 b ⟨8192 * u + r.val, _⟩ A) * w4 (ix3 b A B)
  refine congrArg (_ + ·) (Finset.sum_congr rfl fun A _ => ?_)
  rw [hx0, hx1]

/-- One entry of what the body leaves at point t is G1 at the entry's place in the array. -/
theorem out_entry1
    (hpay : ∀ (x0 : Vec Ideal S1x8192x128 .f32) (x1 : Vec Ideal S1x128x128 .f32) (r : Fin 8192) (B : Fin 128),
      k1_pay1 (F := Ideal) x0 x1 (ix3 0 r B) = x0 (ix3 0 r B) + ∑ A : Fin 128, x0 (ix3 0 r A) * x1 (ix3 0 A B))
    (c : Dev nD) (t : Fin cfg1.N) (j : S1x8192x128.Idx) :
    k1_pay1 (F := Ideal) (iblk1 V c 0 t) (iblk1 V c 1 t) j
      = G1 (V c main_v2) (V c main_v31) (((cfg1.win 2).blk t).view.emb j) := by
  rw [oblk1_emb t j]
  have hj : j = ix3 (0 : Fin 1) (j 1 : Fin 8192) (j 2 : Fin 128) := by
    funext a
    match a with
    | ⟨0, _⟩ => exact Fin.ext (by have h0 : (j 0).val < 1 := (j 0).isLt; show (j 0).val = 0; omega)
    | ⟨1, _⟩ => rfl
    | ⟨2, _⟩ => rfl
  refine (congrArg (k1_pay1 (F := Ideal) (iblk1 V c 0 t) (iblk1 V c 1 t)) hj).trans ?_
  exact pay_G1 hpay (iblk1 V c 0 t) (iblk1 V c 1 t) (V c main_v2) (V c main_v31) ⟨t.val / 8, by have := point_lt t; omega⟩
    (t.val % 8) (Nat.mod_lt _ (by decide)) (fun r A => iblk1_0_apply V c t r A) (fun A B => iblk1_1_apply V c t A B) (j 1) (j 2)

/-- WHAT POINT t WRITES BACK is block t of G1 of the packed array and the weights as the region finds them. -/
theorem flushed1_eq
    (hpiece : ∀ (c : Dev nD) (i : grid1.Coords) arg2 harg2 arg3 harg3 arg4 harg4 (x0 : Vec Ideal S1x8192x128 .f32) (x1 : Vec Ideal S1x128x128 .f32),
      out1 (F := Ideal) c i arg2 harg2 arg3 harg3 arg4 harg4 x0 x1 = k1_pay1 x0 x1)
    (hpay : ∀ (x0 : Vec Ideal S1x8192x128 .f32) (x1 : Vec Ideal S1x128x128 .f32) (r : Fin 8192) (B : Fin 128),
      k1_pay1 (F := Ideal) x0 x1 (ix3 0 r B) = x0 (ix3 0 r B) + ∑ A : Fin 128, x0 (ix3 0 r A) * x1 (ix3 0 A B))
    (c : Dev nD) (t : Fin cfg1.N) :
    (dat1 (F := Ideal) V c).flushed 2 t
      = ((cfg1.win 2).blk t).view.read (Elt Ideal) (G1 (V c main_v2) (V c main_v31)) := by
  show (cfg1.win 2).cut (grid1.coords t) ((dat1 V c).after 2 t) = _
  rw [after1_2, hpiece]
  funext j
  exact out_entry1 V hpay c t j

/-- An index of the array is in point t's block iff each coordinate is in the block's range on its axis. -/
theorem mem_oblk1 (t : Fin cfg1.N) (i : S4x65536x128.Idx) :
    i ∈ ((cfg1.win 2).blk t).view.set ↔ ∀ a : Fin 3, win1_2.index t a * S1x8192x128.size a ≤ (i a).val ∧ (i a).val < win1_2.index t a * S1x8192x128.size a + S1x8192x128.size a := by
  show i ∈ ((View.whole main_v32).slice (win1_2.rect t)).set ↔ _
  rw [View.set_slice_whole, Rect.mem_set_unit]
  exact Iff.rfl

/-- The 32 blocks tile the array: row m of batch b is in the block of point 8 b + m / 8192. -/
theorem cover1_arr (i : S4x65536x128.Idx) :
    ∃ t : Fin cfg1.N, (cfg1.win 2).flush t = true ∧ i ∈ ((cfg1.win 2).blk t).view.set := by
  have h0 : (i 0).val < 4 := (i 0).isLt
  have h1 : (i 1).val < 65536 := (i 1).isLt
  have h2 : (i 2).val < 128 := (i 2).isLt
  obtain ⟨t, ht⟩ : ∃ t : Fin cfg1.N, t.val = 8 * (i 0).val + (i 1).val / 8192 :=
    ⟨⟨8 * (i 0).val + (i 1).val / 8192, lt_of_lt_of_eq (by omega) (show (32 : ℕ) = cfg1.N from N_1.symm)⟩, rfl⟩
  obtain ⟨-, -, -, -, -, -, e0, e1, e2⟩ := idx_facts1 t
  refine ⟨t, flush1_2 t, ?_⟩
  rw [mem_oblk1]
  intro a
  match a with
  | ⟨0, _⟩ => show win1_2.index t (0 : Fin 3) * 1 ≤ (i 0).val ∧ (i 0).val < win1_2.index t (0 : Fin 3) * 1 + 1; rw [e0]; omega
  | ⟨1, _⟩ => show win1_2.index t (1 : Fin 3) * 8192 ≤ (i 1).val ∧ (i 1).val < win1_2.index t (1 : Fin 3) * 8192 + 8192; rw [e1]; omega
  | ⟨2, _⟩ => show win1_2.index t (2 : Fin 3) * 128 ≤ (i 2).val ∧ (i 2).val < win1_2.index t (2 : Fin 3) * 128 + 128; rw [e2]; omega

/-- THE OUTPUT ARRAY after the second kernel: every row of the packed array plus its product with its batch's weights. -/
theorem final1
    (hpiece : ∀ (c : Dev nD) (i : grid1.Coords) arg2 harg2 arg3 harg3 arg4 harg4 (x0 : Vec Ideal S1x8192x128 .f32) (x1 : Vec Ideal S1x128x128 .f32),
      out1 (F := Ideal) c i arg2 harg2 arg3 harg3 arg4 harg4 x0 x1 = k1_pay1 x0 x1)
    (hpay : ∀ (x0 : Vec Ideal S1x8192x128 .f32) (x1 : Vec Ideal S1x128x128 .f32) (r : Fin 8192) (B : Fin 128),
      k1_pay1 (F := Ideal) x0 x1 (ix3 0 r B) = x0 (ix3 0 r B) + ∑ A : Fin 128, x0 (ix3 0 r A) * x1 (ix3 0 A B))
    (c : Dev nD) :
    (dat1 (F := Ideal) V c).arrAt 2 cfg1.N = G1 (V c main_v2) (V c main_v31) :=
  (dat1 (F := Ideal) V c).arrAt_eq_of_cover 2 (G1 (V c main_v2) (V c main_v31))
    (fun t _ => flushed1_eq V hpiece hpay c t) cover1_arr

end Value1

end Cert.KernelIdeal.Hand

end
-- ==== Proof.Spec.lean ====
/-
  Batched channel attention, stated as mathematics over the extended reals.

  For q, k of shape [4, 64, 64, 64, 32], read as q3, k3 of shape [4, 262144, 32] (the three middle axes
  flattened in row-major order):
    scores[b, i, j] = Σ_n q3[b, n, i] · k3[b, n, j]                       (a 32 × 32 matrix per batch)
    w                = softmax of scores along its last axis
    mix[b, n, i]     = q3[b, n, i] + Σ_j q3[b, n, j] · w[b, i, j]
    result           = mix read back at the five-axis shape.
  The packed layout puts four consecutive rows of q3 side by side: row m of shape [4, 65536, 128] holds
  rows 4m … 4m+3, lane 32·s + i being channel i of row 4m + s. In that layout the second product is a product
  with the block-diagonal 128 × 128 matrix whose four diagonal blocks are the transpose of w.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Attn

open Idealize.ShloMosaic Idealize.ShloMosaic.ValueIdx

/-- The arguments' shape. -/
abbrev S5 : Shape := ⟨5, ![4, 64, 64, 64, 32]⟩
/-- Rows by channels: the three middle axes flattened. -/
abbrev SQ : Shape := ⟨3, ![4, 262144, 32]⟩
/-- The packed layout: four consecutive rows side by side. -/
abbrev SP : Shape := ⟨3, ![4, 65536, 128]⟩
/-- The channel-by-channel matrices. -/
abbrev SW : Shape := ⟨3, ![4, 32, 32]⟩
/-- The block-diagonal matrices of the packed layout. -/
abbrev SB : Shape := ⟨3, ![4, 128, 128]⟩
/-- One number per row of a channel-by-channel matrix. -/
abbrev SV : Shape := ⟨2, ![4, 32]⟩
/-- The same with the reduced axis kept at size one. -/
abbrev SC : Shape := ⟨3, ![4, 32, 1]⟩
/-- A scalar. -/
abbrev S0 : Shape := ⟨0, ![]⟩

/-- The softmax along the last axis, as the chain of array operations that computes it: the row maximum (a
    max-reduction started at −∞, then a maximum with −∞), broadcast back along the row and subtracted; the
    exponential; the row sum (started at 0), broadcast back; the quotient. -/
def softmax (hr : SW.ReducesTo [2] SV) (h0 : 0 < S0.numel)
    (hb0 : S0.BroadcastsInDim SV (![] : Fin 0 → Fin SV.rank))
    (hb1 : SV.BroadcastsInDim SC (![0, 1] : Fin 2 → Fin SC.rank))
    (hb2 : SC.BroadcastsInDim SW (![0, 1, 2] : Fin 3 → Fin SW.rank))
    (x : FVec Ideal SW .f32) : FVec Ideal SW .f32 :=
  Host.divf (F := Ideal)
    (Host.exp (F := Ideal) (subf (F := Ideal) x
      (broadcastInDim SW ![0, 1, 2] hb2 (broadcastInDim SC ![0, 1] hb1
        (maximumf (F := Ideal) (broadcastInDim SV ![] hb0 (constant (F := Ideal) S0 .f32 0xFF800000#32))
          (Host.reduce FloatOps.maximumf x (constant (F := Ideal) S0 .f32 0xFF800000#32) hr h0))))))
    (broadcastInDim SW ![0, 1, 2] hb2 (broadcastInDim SC ![0, 1] hb1
      (Host.reduceAdd (F := Ideal)
        (Host.exp (F := Ideal) (subf (F := Ideal) x
          (broadcastInDim SW ![0, 1, 2] hb2 (broadcastInDim SC ![0, 1] hb1
            (maximumf (F := Ideal) (broadcastInDim SV ![] hb0 (constant (F := Ideal) S0 .f32 0xFF800000#32))
              (Host.reduce FloatOps.maximumf x (constant (F := Ideal) S0 .f32 0xFF800000#32) hr h0))))))
        (constant (F := Ideal) S0 .f32 0x00000000#32) hr h0)))

/-- scores[b, i, j] = Σ_n q3[b, n, i] · k3[b, n, j]. -/
def scores (q3 k3 : FVec Ideal SQ .f32) : FVec Ideal SW .f32 :=
  fun i => ∑ n : Fin 262144, q3 (ix3 (i 0 : Fin 4) n (i 1 : Fin 32)) * k3 (ix3 (i 0 : Fin 4) n (i 2 : Fin 32))

/-- mix[b, n, i] = q3[b, n, i] + Σ_j q3[b, n, j] · w[b, i, j]. -/
def mix (q3 : FVec Ideal SQ .f32) (w : FVec Ideal SW .f32) : FVec Ideal SQ .f32 :=
  fun i => q3 i + ∑ j : Fin 32, q3 (ix3 (i 0 : Fin 4) (i 1 : Fin 262144) j) * w (ix3 (i 0 : Fin 4) (i 2 : Fin 32) j)

/-- The 128 × 128 matrix with four diagonal 32 × 32 blocks, each the transpose of w:
    entry (A, B) is w[B mod 32, A mod 32] when A and B lie in the same block, and 0 otherwise. -/
def blockDiag (w : FVec Ideal SW .f32) : FVec Ideal SB .f32 :=
  fun i => if (i 1).val / 32 = (i 2).val / 32
    then w (ix3 (i 0 : Fin 4) (⟨(i 2).val % 32, Nat.mod_lt _ (by decide)⟩ : Fin 32)
              (⟨(i 1).val % 32, Nat.mod_lt _ (by decide)⟩ : Fin 32))
    else 0

/-- The whole function: flatten, scores, softmax, mix, and back to five axes. -/
def result (h53 : S5.ShapeCasts SQ) (h35 : SQ.ShapeCasts S5)
    (hr : SW.ReducesTo [2] SV) (h0 : 0 < S0.numel)
    (hb0 : S0.BroadcastsInDim SV (![] : Fin 0 → Fin SV.rank))
    (hb1 : SV.BroadcastsInDim SC (![0, 1] : Fin 2 → Fin SC.rank))
    (hb2 : SC.BroadcastsInDim SW (![0, 1, 2] : Fin 3 → Fin SW.rank))
    (q k : FVec Ideal S5 .f32) : FVec Ideal S5 .f32 :=
  shapeCast S5 (mix (shapeCast SQ q h53)
    (softmax hr h0 hb0 hb1 hb2 (scores (shapeCast SQ q h53) (shapeCast SQ k h53)))) h35

/-- The scores at an index given by its coordinates. -/
theorem scores_ix3 (q3 k3 : FVec Ideal SQ .f32) (b : Fin 4) (i j : Fin 32) :
    scores q3 k3 (ix3 b i j) = ∑ n : Fin 262144, q3 (ix3 b n i) * k3 (ix3 b n j) := rfl

/-- The mix at an index given by its coordinates. -/
theorem mix_ix3 (q3 : FVec Ideal SQ .f32) (w : FVec Ideal SW .f32) (b : Fin 4) (n : Fin 262144) (i : Fin 32) :
    mix q3 w (ix3 b n i) = q3 (ix3 b n i) + ∑ j : Fin 32, q3 (ix3 b n j) * w (ix3 b i j) := rfl

/-- The block-diagonal matrix at an index given by its coordinates. -/
theorem blockDiag_ix3 (w : FVec Ideal SW .f32) (b : Fin 4) (A B : Fin 128) :
    blockDiag w (ix3 b A B) = if A.val / 32 = B.val / 32
      then w (ix3 b (⟨B.val % 32, Nat.mod_lt _ (by decide)⟩ : Fin 32) (⟨A.val % 32, Nat.mod_lt _ (by decide)⟩ : Fin 32))
      else 0 := rfl

end Cert.Attn

end
-- ==== Proof.KIHost.lean ====
/- The kernel program's three host stretches read as functions of the buffers' contents before them.

   * Before the first launch: each argument is flattened to rows by channels and then packed four rows
     side by side.
   * Between the launches: the four diagonal 32 x 32 blocks of the 128 x 128 accumulators are summed,
     the softmax along the last axis is taken, and the block-diagonal 128 x 128 matrix whose four
     diagonal blocks are its transpose is assembled from concatenations with zero blocks.
   * After the second launch: the packed result is read back at the five-axis shape. -/
import proofs.«181825_j55095840473688_2_alg».proof.Proof.Gen.KernelIdeal.Launch
import proofs.«181825_j55095840473688_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostVal

open Cert.KernelIdeal Cert.KernelIdeal.Gen Idealize.ShloMosaic Idealize.ShloMosaic.ValueIdx Idealize.ShloMosaic.TcCoe Idealize.SL.Sem Idealize.ShloMosaic.StableHlo

/-- The first stretch leaves the first argument, flattened and packed, in the first launch's left operand. -/
theorem host0_v2 (W : Valuation τ sig (Elt Ideal)) :
    StableHlo.after (hostOps0 (F := Ideal)) W (Proc.devRef .tc main_v2)
      = shapeCast S4x65536x128 (shapeCast S4x262144x32 (W (Proc.devRef .tc main_arg0))
          shapeCasts_S4x64x64x64x32_S4x262144x32) shapeCasts_S4x262144x32_S4x65536x128 := by
  after_results
  rfl

/-- The first stretch leaves the second argument, flattened and packed, in the first launch's right operand. -/
theorem host0_v3 (W : Valuation τ sig (Elt Ideal)) :
    StableHlo.after (hostOps0 (F := Ideal)) W (Proc.devRef .tc main_v3)
      = shapeCast S4x65536x128 (shapeCast S4x262144x32 (W (Proc.devRef .tc main_arg1))
          shapeCasts_S4x64x64x64x32_S4x262144x32) shapeCasts_S4x262144x32_S4x65536x128 := by
  after_results
  rfl

/-- The last stretch reads the packed result back at the five-axis shape. -/
theorem host2_v33 (W : Valuation τ sig (Elt Ideal)) :
    StableHlo.after (hostOps2 (F := Ideal)) W (Proc.devRef .tc main_v33)
      = shapeCast S4x64x64x64x32 (W (Proc.devRef .tc main_v32)) shapeCasts_S4x65536x128_S4x64x64x64x32 := by
  after_results
  rfl

/-! # The middle stretch -/

/-- The all-zero 32 x 32 blocks, as the program writes them: the scalar zero broadcast. -/
def zeroBlock : FVec Ideal S4x32x32 .f32 :=
  broadcastInDim S4x32x32 ![] bcast_S_S4x32x32 (constant (F := Ideal) S_ .f32 0x00000000#32)

/-- The sum of the four diagonal 32 x 32 blocks as the program computes it: zero plus each slice in turn. -/
def sumDiag (wp : FVec Ideal S4x128x128 .f32) : FVec Ideal S4x32x32 .f32 :=
  addf (F := Ideal) (addf (F := Ideal) (addf (F := Ideal) (addf (F := Ideal) zeroBlock
    (extractStridedSlice S4x32x32 ![0, 0, 0] wp slices_S4x128x128_S4x32x32_0_0_0))
    (extractStridedSlice S4x32x32 ![0, 32, 32] wp slices_S4x128x128_S4x32x32_0_32_32))
    (extractStridedSlice S4x32x32 ![0, 64, 64] wp slices_S4x128x128_S4x32x32_0_64_64))
    (extractStridedSlice S4x32x32 ![0, 96, 96] wp slices_S4x128x128_S4x32x32_0_96_96)

/-- Four 32 x 32 blocks side by side. -/
def rowBlock (p0 p1 p2 p3 : FVec Ideal S4x32x32 .f32) : FVec Ideal S4x32x128 .f32 :=
  concatenate S4x32x128 2 [⟨S4x32x32, p0⟩, ⟨S4x32x32, p1⟩, ⟨S4x32x32, p2⟩, ⟨S4x32x32, p3⟩]
    concatenates_S4x32x32_S4x32x32_S4x32x32_S4x32x32_S4x32x128_d2

/-- Four 32 x 128 blocks stacked. -/
def stack4 (r0 r1 r2 r3 : FVec Ideal S4x32x128 .f32) : FVec Ideal S4x128x128 .f32 :=
  concatenate S4x128x128 1 [⟨S4x32x128, r0⟩, ⟨S4x32x128, r1⟩, ⟨S4x32x128, r2⟩, ⟨S4x32x128, r3⟩]
    concatenates_S4x32x128_S4x32x128_S4x32x128_S4x32x128_S4x128x128_d1

/-- The weights with their last two axes exchanged. -/
def flip (w : FVec Ideal S4x32x32 .f32) : FVec Ideal S4x32x32 .f32 :=
  transpose S4x32x32 [0, 2, 1] w transposes_S4x32x32_S4x32x32_0_2_1

/-- The block-diagonal matrix as the program assembles it: row block `t` has the transposed weights at position
    `t` and zero blocks elsewhere; the four row blocks are stacked. -/
def assemble (w : FVec Ideal S4x32x32 .f32) : FVec Ideal S4x128x128 .f32 :=
  stack4 (rowBlock (flip w) zeroBlock zeroBlock zeroBlock) (rowBlock zeroBlock (flip w) zeroBlock zeroBlock)
    (rowBlock zeroBlock zeroBlock (flip w) zeroBlock) (rowBlock zeroBlock zeroBlock zeroBlock (flip w))

/-- The middle stretch as one composed term: the block sum, its softmax, the assembly. -/
theorem host1_composed (W : Valuation τ sig (Elt Ideal)) :
    StableHlo.after (hostOps1 (F := Ideal)) W (Proc.devRef .tc main_v31)
      = assemble (Cert.Attn.softmax reducesTo_S4x32x32_S4x32_d2 h_S_ bcast_S_S4x32 bcast_S4x32_S4x32x1_0_1
          bcast_S4x32x1_S4x32x32_0_1_2 (sumDiag (W (Proc.devRef .tc main_v4)))) := by
  after_results
  rfl

/-! ## The block sum -/

/-- A zero block's entries are zero. -/
theorem zeroBlock_apply (i : S4x32x32.Idx) : zeroBlock i = 0 := by
  show Ideal.ofBits .f32 0x00000000#32 = 0
  exact Ideal.ofBits_zero_f32

/-- The sum of the four diagonal 32 x 32 blocks of each 128 x 128 matrix. -/
def foldDiag (wp : FVec Ideal Cert.Attn.SB .f32) : FVec Ideal Cert.Attn.SW .f32 :=
  fun i => ∑ s : Fin 4, wp (ix3 (i 0 : Fin 4)
    (⟨32 * s.val + (i 1).val, by have h1 : (i 1).val < 32 := (i 1).isLt; have hs := s.isLt; omega⟩ : Fin 128)
    (⟨32 * s.val + (i 2).val, by have h2 : (i 2).val < 32 := (i 2).isLt; have hs := s.isLt; omega⟩ : Fin 128))

/-- The block sum at an index given by its coordinates. -/
theorem foldDiag_ix3 (wp : FVec Ideal Cert.Attn.SB .f32) (b : Fin 4) (i j : Fin 32) :
    foldDiag wp (ix3 b i j) = ∑ s : Fin 4, wp (ix3 b
      (⟨32 * s.val + i.val, by have := i.isLt; have := s.isLt; omega⟩ : Fin 128)
      (⟨32 * s.val + j.val, by have := j.isLt; have := s.isLt; omega⟩ : Fin 128)) := rfl

/-- The diagonal block at offset `o`, read at (b, i, j), is the matrix at (b, o + i, o + j). -/
theorem slice_diag_apply (wp : FVec Ideal S4x128x128 .f32) (o : Nat) (h : S4x128x128.Slices ![0, o, o] S4x32x32)
    (b : Fin 4) (i j : Fin 32) (hi : o + i.val < 128) (hj : o + j.val < 128) :
    extractStridedSlice S4x32x32 ![0, o, o] wp h (ix3 b i j) = wp (ix3 b (⟨o + i.val, hi⟩ : Fin 128) (⟨o + j.val, hj⟩ : Fin 128)) :=
  extractStridedSlice_apply _ wp h _ _ fun a => match a with
    | ⟨0, _⟩ => (Nat.zero_add _).symm
    | ⟨1, _⟩ => rfl
    | ⟨2, _⟩ => rfl

/-- Zero plus the four slices in turn is the sum of the four diagonal blocks. -/
theorem sumDiag_eq (wp : FVec Ideal S4x128x128 .f32) : sumDiag wp = foldDiag wp := by
  funext i
  obtain ⟨b, p, q, rfl⟩ : ∃ (b : Fin 4) (p q : Fin 32), i = ix3 b p q := ⟨i 0, i 1, i 2, eq_ix3 i⟩
  have hp := p.isLt
  have hq := q.isLt
  unfold sumDiag
  rw [addf_apply, addf_apply, addf_apply, addf_apply, zeroBlock_apply, zero_add,
    slice_diag_apply wp 0 _ b p q (by omega) (by omega), slice_diag_apply wp 32 _ b p q (by omega) (by omega),
    slice_diag_apply wp 64 _ b p q (by omega) (by omega), slice_diag_apply wp 96 _ b p q (by omega) (by omega),
    foldDiag_ix3, Fin.sum_univ_four]
  rfl

/-! ## Four pieces of 32 along an axis of 128 -/

/-- One of four, by number. -/
def pick4 {β : Type} (k : Nat) (a0 a1 a2 a3 : β) : β :=
  match k with
  | 0 => a0
  | 1 => a1
  | 2 => a2
  | _ => a3

/-- Four 32 x 32 blocks side by side, read at column B: block B / 32 at column B % 32. -/
theorem rowBlock_apply (p0 p1 p2 p3 : FVec Ideal S4x32x32 .f32) (b : Fin 4) (i : Fin 32) (B : Fin 128) :
    rowBlock p0 p1 p2 p3 (ix3 b i B)
      = pick4 (B.val / 32) p0 p1 p2 p3 (ix3 b i (⟨B.val % 32, Nat.mod_lt _ (by decide)⟩ : Fin 32)) := by
  have hB := B.isLt
  have hoff : ∀ c : Fin S4x32x32.rank, c.cast (rfl : S4x32x32.rank = S4x32x128.rank) ≠ (2 : Fin S4x32x128.rank) →
      ((ix3 b i (⟨B.val % 32, Nat.mod_lt _ (by decide)⟩ : Fin 32) : S4x32x32.Idx) c).val
        = ((ix3 b i B : S4x32x128.Idx) (c.cast (rfl : S4x32x32.rank = S4x32x128.rank))).val :=
    fun c => match c with
      | ⟨0, _⟩ => fun _ => rfl
      | ⟨1, _⟩ => fun _ => rfl
      | ⟨2, _⟩ => fun h => absurd rfl h
  unfold rowBlock
  rcases (show B.val / 32 = 0 ∨ B.val / 32 = 1 ∨ B.val / 32 = 2 ∨ B.val / 32 = 3 by omega) with h | h | h | h
  · rw [h]
    exact concatenate_apply_piece (2 : Fin S4x32x128.rank) _ _ _ 0 (by show (0 : Nat) < 4; decide) S4x32x32 p0 rfl rfl 0 rfl _ hoff
      (by show 0 + B.val % 32 = B.val; omega)
  · rw [h]
    exact concatenate_apply_piece (2 : Fin S4x32x128.rank) _ _ _ 1 (by show (1 : Nat) < 4; decide) S4x32x32 p1 rfl rfl 32 rfl _ hoff
      (by show 32 + B.val % 32 = B.val; omega)
  · rw [h]
    exact concatenate_apply_piece (2 : Fin S4x32x128.rank) _ _ _ 2 (by show (2 : Nat) < 4; decide) S4x32x32 p2 rfl rfl 64 rfl _ hoff
      (by show 64 + B.val % 32 = B.val; omega)
  · rw [h]
    exact concatenate_apply_piece (2 : Fin S4x32x128.rank) _ _ _ 3 (by show (3 : Nat) < 4; decide) S4x32x32 p3 rfl rfl 96 rfl _ hoff
      (by show 96 + B.val % 32 = B.val; omega)

/-- Four 32 x 128 blocks stacked, read at row A: block A / 32 at row A % 32. -/
theorem stack4_apply (r0 r1 r2 r3 : FVec Ideal S4x32x128 .f32) (b : Fin 4) (A B : Fin 128) :
    stack4 r0 r1 r2 r3 (ix3 b A B)
      = pick4 (A.val / 32) r0 r1 r2 r3 (ix3 b (⟨A.val % 32, Nat.mod_lt _ (by decide)⟩ : Fin 32) B) := by
  have hA := A.isLt
  have hoff : ∀ c : Fin S4x32x128.rank, c.cast (rfl : S4x32x128.rank = S4x128x128.rank) ≠ (1 : Fin S4x128x128.rank) →
      ((ix3 b (⟨A.val % 32, Nat.mod_lt _ (by decide)⟩ : Fin 32) B : S4x32x128.Idx) c).val
        = ((ix3 b A B : S4x128x128.Idx) (c.cast (rfl : S4x32x128.rank = S4x128x128.rank))).val :=
    fun c => match c with
      | ⟨0, _⟩ => fun _ => rfl
      | ⟨1, _⟩ => fun h => absurd rfl h
      | ⟨2, _⟩ => fun _ => rfl
  unfold stack4
  rcases (show A.val / 32 = 0 ∨ A.val / 32 = 1 ∨ A.val / 32 = 2 ∨ A.val / 32 = 3 by omega) with h | h | h | h
  · rw [h]
    exact concatenate_apply_piece (1 : Fin S4x128x128.rank) _ _ _ 0 (by show (0 : Nat) < 4; decide) S4x32x128 r0 rfl rfl 0 rfl _ hoff
      (by show 0 + A.val % 32 = A.val; omega)
  · rw [h]
    exact concatenate_apply_piece (1 : Fin S4x128x128.rank) _ _ _ 1 (by show (1 : Nat) < 4; decide) S4x32x128 r1 rfl rfl 32 rfl _ hoff
      (by show 32 + A.val % 32 = A.val; omega)
  · rw [h]
    exact concatenate_apply_piece (1 : Fin S4x128x128.rank) _ _ _ 2 (by show (2 : Nat) < 4; decide) S4x32x128 r2 rfl rfl 64 rfl _ hoff
      (by show 64 + A.val % 32 = A.val; omega)
  · rw [h]
    exact concatenate_apply_piece (1 : Fin S4x128x128.rank) _ _ _ 3 (by show (3 : Nat) < 4; decide) S4x32x128 r3 rfl rfl 96 rfl _ hoff
      (by show 96 + A.val % 32 = A.val; omega)

/-! ## The assembly is the block-diagonal matrix -/

/-- The exchanged weights at (b, i, j) are the weights at (b, j, i). -/
theorem flip_apply (w : FVec Ideal S4x32x32 .f32) (b : Fin 4) (i j : Fin 32) : flip w (ix3 b i j) = w (ix3 b j i) :=
  transpose_ix3_021_apply w transposes_S4x32x32_S4x32x32_0_2_1 b i j

/-- Entry (A, B) of the assembly: the weights at (B mod 32, A mod 32) when A and B lie in the same block of 32,
    and zero otherwise. -/
theorem assemble_eq (w : FVec Ideal S4x32x32 .f32) : assemble w = Cert.Attn.blockDiag w := by
  funext i
  obtain ⟨b, A, B, rfl⟩ : ∃ (b : Fin 4) (A B : Fin 128), i = ix3 b A B := ⟨i 0, i 1, i 2, eq_ix3 i⟩
  have hA := A.isLt
  have hB := B.isLt
  rw [Cert.Attn.blockDiag_ix3]
  unfold assemble
  rw [stack4_apply]
  rcases (show A.val / 32 = 0 ∨ A.val / 32 = 1 ∨ A.val / 32 = 2 ∨ A.val / 32 = 3 by omega) with hA' | hA' | hA' | hA' <;>
  rcases (show B.val / 32 = 0 ∨ B.val / 32 = 1 ∨ B.val / 32 = 2 ∨ B.val / 32 = 3 by omega) with hB' | hB' | hB' | hB' <;>
  rw [hA'] <;> simp only [pick4] <;> rw [rowBlock_apply, hB'] <;> simp only [pick4] <;>
  first
    | (rw [flip_apply, if_pos trivial])
    | (rw [zeroBlock_apply, if_neg (by decide)])

/-- What the middle stretch leaves in the second launch's right operand: the block-diagonal matrix of the softmax
    of the summed diagonal blocks of the first launch's accumulators. -/
theorem host1_v31 (W : Valuation τ sig (Elt Ideal)) :
    StableHlo.after (hostOps1 (F := Ideal)) W (Proc.devRef .tc main_v31)
      = Cert.Attn.blockDiag (Cert.Attn.softmax reducesTo_S4x32x32_S4x32_d2 h_S_ bcast_S_S4x32 bcast_S4x32_S4x32x1_0_1
          bcast_S4x32x1_S4x32x32_0_1_2 (foldDiag (W (Proc.devRef .tc main_v4)))) := by
  rw [host1_composed, sumDiag_eq, assemble_eq]

end Cert.KernelIdeal.HostVal

end
-- ==== Proof.Packed.lean ====
/-
  The algebra of the packed layout. Packing puts rows 4m … 4m+3 of a [4, 262144, 32] array side by side in row m of
  a [4, 65536, 128] array, lane 32·s + i being channel i of row 4m + s. Over the extended reals (a commutative
  additive monoid in which x · 0 = 0):
    the sum over all 262144 rows is the sum over the lane block s, the chunk t and the packed row r within the chunk,
      row = 4 · (8192 · t + r) + s;
    the product of a packed row with the block-diagonal matrix of w only meets the block the lane lies in;
    reading the packed array at the five-axis shape is reading the unpacked array there.
-/
import proofs.«181825_j55095840473688_2_alg».proof.Proof.Spec

noncomputable section

open scoped BigOperators

namespace Cert.Attn

open Idealize.ShloMosaic Idealize.ShloMosaic.ValueIdx

/-- The packed array at (b, m, 32·s + i) is the unpacked one at (b, 4m + s, i). -/
theorem packed_apply (y : FVec Ideal SQ .f32) (hp : SQ.ShapeCasts SP) (b : Fin 4) (m : Fin 65536) (s : Fin 4) (i : Fin 32) :
    shapeCast SP y hp (ix3 b m (⟨32 * s.val + i.val, by omega⟩ : Fin 128))
      = y (ix3 b (⟨4 * m.val + s.val, by omega⟩ : Fin 262144) i) :=
  shapeCast_apply y hp _ _ (by
    rewrite [Shape.rowMajor_val_three, Shape.rowMajor_val_three]
    show (b.val * 262144 + (4 * m.val + s.val)) * 32 + i.val = (b.val * 65536 + m.val) * 128 + (32 * s.val + i.val)
    omega)

/-- The packed array at (b, m, A) is the unpacked one at (b, 4m + A / 32, A mod 32). -/
theorem packed_apply_lane (y : FVec Ideal SQ .f32) (hp : SQ.ShapeCasts SP) (b : Fin 4) (m : Fin 65536) (A : Fin 128) :
    shapeCast SP y hp (ix3 b m A)
      = y (ix3 b (⟨4 * m.val + A.val / 32, by omega⟩ : Fin 262144) (⟨A.val % 32, Nat.mod_lt _ (by decide)⟩ : Fin 32)) :=
  shapeCast_apply y hp _ _ (by
    rewrite [Shape.rowMajor_val_three, Shape.rowMajor_val_three]
    show (b.val * 262144 + (4 * m.val + A.val / 32)) * 32 + A.val % 32 = (b.val * 65536 + m.val) * 128 + A.val
    omega)

/-- Rows as (lane block, chunk, packed row in the chunk): row = 4 · (8192 · t + r) + s. -/
def rowEquiv : Fin 4 × Fin 8 × Fin 8192 ≃ Fin 262144 where
  toFun x := ⟨4 * (8192 * x.2.1.val + x.2.2.val) + x.1.val, by omega⟩
  invFun n := (⟨n.val % 4, Nat.mod_lt _ (by decide)⟩, ⟨n.val / 4 / 8192, by omega⟩, ⟨n.val / 4 % 8192, Nat.mod_lt _ (by decide)⟩)
  left_inv x := by
    obtain ⟨s, t, r⟩ := x
    refine Prod.ext (Fin.ext ?_) (Prod.ext (Fin.ext ?_) (Fin.ext ?_))
    · show (4 * (8192 * t.val + r.val) + s.val) % 4 = s.val; omega
    · show (4 * (8192 * t.val + r.val) + s.val) / 4 / 8192 = t.val; omega
    · show (4 * (8192 * t.val + r.val) + s.val) / 4 % 8192 = r.val; omega
  right_inv n := by
    refine Fin.ext ?_
    show 4 * (8192 * (n.val / 4 / 8192) + n.val / 4 % 8192) + n.val % 4 = n.val
    omega

/-- A sum over all rows is the triple sum over lane block, chunk and packed row in the chunk. -/
theorem sum_rows {M : Type*} [AddCommMonoid M] (f : Fin 262144 → M) :
    ∑ n : Fin 262144, f n
      = ∑ s : Fin 4, ∑ t : Fin 8, ∑ r : Fin 8192, f (⟨4 * (8192 * t.val + r.val) + s.val, by omega⟩ : Fin 262144) := by
  rw [← Equiv.sum_comp rowEquiv f, Fintype.sum_prod_type]
  refine Finset.sum_congr rfl fun s _ => ?_
  rw [Fintype.sum_prod_type]
  rfl

/-- Lanes as (block, channel): lane = 32 · t + j. -/
def laneEquiv : Fin 4 × Fin 32 ≃ Fin 128 where
  toFun x := ⟨32 * x.1.val + x.2.val, by omega⟩
  invFun A := (⟨A.val / 32, by omega⟩, ⟨A.val % 32, Nat.mod_lt _ (by decide)⟩)
  left_inv x := by
    obtain ⟨t, j⟩ := x
    refine Prod.ext (Fin.ext ?_) (Fin.ext ?_)
    · show (32 * t.val + j.val) / 32 = t.val; omega
    · show (32 * t.val + j.val) % 32 = j.val; omega
  right_inv A := by
    refine Fin.ext ?_
    show 32 * (A.val / 32) + A.val % 32 = A.val
    omega

/-- A sum over the 128 lanes is the double sum over block and channel. -/
theorem sum_lanes {M : Type*} [AddCommMonoid M] (f : Fin 128 → M) :
    ∑ A : Fin 128, f A = ∑ t : Fin 4, ∑ j : Fin 32, f (⟨32 * t.val + j.val, by omega⟩ : Fin 128) := by
  rw [← Equiv.sum_comp laneEquiv f, Fintype.sum_prod_type]
  rfl

/-- THE SCORES FROM THE PACKED LAYOUT: summing, over the four lane blocks, the eight chunks and the 8192 packed rows
    of a chunk, the products of lane 32·s + i of the packed q with lane 32·s + j of the packed k gives scores[b, i, j]. -/
theorem scores_packed (q3 k3 : FVec Ideal SQ .f32) (hp : SQ.ShapeCasts SP) (b : Fin 4) (i j : Fin 32) :
    (∑ s : Fin 4, ∑ t : Fin 8, ∑ r : Fin 8192,
        shapeCast SP q3 hp (ix3 b (⟨8192 * t.val + r.val, by omega⟩ : Fin 65536) (⟨32 * s.val + i.val, by omega⟩ : Fin 128))
          * shapeCast SP k3 hp (ix3 b (⟨8192 * t.val + r.val, by omega⟩ : Fin 65536) (⟨32 * s.val + j.val, by omega⟩ : Fin 128)))
      = scores q3 k3 (ix3 b i j) := by
  rw [scores_ix3, sum_rows fun n => q3 (ix3 b n i) * k3 (ix3 b n j)]
  refine Finset.sum_congr rfl fun s _ => Finset.sum_congr rfl fun t _ => Finset.sum_congr rfl fun r _ => ?_
  rw [packed_apply q3 hp b ⟨8192 * t.val + r.val, by omega⟩ s i, packed_apply k3 hp b ⟨8192 * t.val + r.val, by omega⟩ s j]

/-- THE MIX IN THE PACKED LAYOUT: a packed row plus its product with the block-diagonal matrix of w is the packed
    row of the mix. -/
theorem mix_packed (q3 : FVec Ideal SQ .f32) (w : FVec Ideal SW .f32) (hp : SQ.ShapeCasts SP)
    (b : Fin 4) (m : Fin 65536) (B : Fin 128) :
    shapeCast SP q3 hp (ix3 b m B) + ∑ A : Fin 128, shapeCast SP q3 hp (ix3 b m A) * blockDiag w (ix3 b A B)
      = shapeCast SP (mix q3 w) hp (ix3 b m B) := by
  have hB : B.val / 32 < 4 := by omega
  rw [packed_apply_lane (mix q3 w) hp b m B, mix_ix3, packed_apply_lane q3 hp b m B]
  refine congrArg (_ + ·) ?_
  rw [sum_lanes fun A => shapeCast SP q3 hp (ix3 b m A) * blockDiag w (ix3 b A B)]
  rw [Finset.sum_eq_single (⟨B.val / 32, hB⟩ : Fin 4)]
  · refine Finset.sum_congr rfl fun j _ => ?_
    rw [packed_apply q3 hp b m ⟨B.val / 32, hB⟩ j, blockDiag_ix3]
    have h1 : (32 * (B.val / 32) + j.val) / 32 = B.val / 32 := by omega
    rw [if_pos h1]
    refine congrArg (_ * w ·) ?_
    funext a
    match a with
    | ⟨0, _⟩ => rfl
    | ⟨1, _⟩ => rfl
    | ⟨2, _⟩ => exact Fin.ext (show (32 * (B.val / 32) + j.val) % 32 = j.val by omega)
  · intro t _ ht
    refine Finset.sum_eq_zero fun j _ => ?_
    rw [blockDiag_ix3]
    have h1 : ¬ (32 * t.val + j.val) / 32 = B.val / 32 := by
      intro h
      apply ht
      refine Fin.ext ?_
      show t.val = B.val / 32
      omega
    rw [if_neg h1, mul_zero]
  · intro h
    exact absurd (Finset.mem_univ _) h

/-- Reading the packed array at the five-axis shape is reading the unpacked array there: both read the same
    row-major position. -/
theorem cast_cast (y : FVec Ideal SQ .f32) (hp : SQ.ShapeCasts SP) (hp5 : SP.ShapeCasts S5) (h35 : SQ.ShapeCasts S5) :
    shapeCast S5 (shapeCast SP y hp) hp5 = shapeCast S5 y h35 := by
  funext j
  show y (Shape.reshapeEquiv hp (Shape.reshapeEquiv hp5 j)) = y (Shape.reshapeEquiv h35 j)
  rw [Shape.reshapeEquiv_reshapeEquiv]

end Cert.Attn

end
-- ==== Proof.PackedKernel.lean ====
/-
  The packed computation as a whole. Summing the packed products over lane blocks, chunks and packed rows gives the
  scores; the softmax of the scores, laid out as a block-diagonal 128 x 128 matrix, multiplies each packed row; the
  result is the mix of the unpacked array with the softmax of its scores, read in the packed layout.
-/
import proofs.«181825_j55095840473688_2_alg».proof.Proof.Spec
import proofs.«181825_j55095840473688_2_alg».proof.Proof.Packed

noncomputable section

open scoped BigOperators

namespace Cert.Attn

open Idealize.ShloMosaic Idealize.ShloMosaic.ValueIdx

/-- The packed sums, as a function of the index, are the scores. -/
theorem scores_packed_fun (q3 k3 : FVec Ideal SQ .f32) (hp : SQ.ShapeCasts SP) :
    (fun i : SW.Idx => ∑ s : Fin 4, ∑ t : Fin 8, ∑ r : Fin 8192,
        shapeCast SP q3 hp (ix3 (i 0 : Fin 4) (⟨8192 * t.val + r.val, by omega⟩ : Fin 65536)
            (⟨32 * s.val + (i 1).val, by have h1 : (i 1).val < 32 := (i 1).isLt; omega⟩ : Fin 128))
          * shapeCast SP k3 hp (ix3 (i 0 : Fin 4) (⟨8192 * t.val + r.val, by omega⟩ : Fin 65536)
            (⟨32 * s.val + (i 2).val, by have h2 : (i 2).val < 32 := (i 2).isLt; omega⟩ : Fin 128)))
      = scores q3 k3 := by
  funext i
  obtain ⟨b, x, y, rfl⟩ : ∃ (b : Fin 4) (x y : Fin 32), i = ix3 b x y := ⟨i 0, i 1, i 2, eq_ix3 i⟩
  exact scores_packed q3 k3 hp b x y

/-- A packed array plus its product with the block-diagonal matrix of w, as a function of the index, is the packed
    mix. -/
theorem mix_packed_fun (q3 : FVec Ideal SQ .f32) (w : FVec Ideal SW .f32) (hp : SQ.ShapeCasts SP) :
    (fun j : SP.Idx => shapeCast SP q3 hp j
        + ∑ A : Fin 128, shapeCast SP q3 hp (ix3 (j 0 : Fin 4) (j 1 : Fin 65536) A) * blockDiag w (ix3 (j 0 : Fin 4) A (j 2 : Fin 128)))
      = shapeCast SP (mix q3 w) hp := by
  funext j
  obtain ⟨b, m, B, rfl⟩ : ∃ (b : Fin 4) (m : Fin 65536) (B : Fin 128), j = ix3 b m B := ⟨j 0, j 1, j 2, eq_ix3 j⟩
  exact mix_packed q3 w hp b m B

/-- THE PACKED COMPUTATION is the packed reading of the mix of q3 with the softmax of the scores of q3 and k3. -/
theorem packed_kernel (q3 k3 : FVec Ideal SQ .f32) (hp : SQ.ShapeCasts SP)
    (hr : SW.ReducesTo [2] SV) (h0 : 0 < S0.numel)
    (hb0 : S0.BroadcastsInDim SV (![] : Fin 0 → Fin SV.rank))
    (hb1 : SV.BroadcastsInDim SC (![0, 1] : Fin 2 → Fin SC.rank))
    (hb2 : SC.BroadcastsInDim SW (![0, 1, 2] : Fin 3 → Fin SW.rank)) :
    (fun j : SP.Idx => shapeCast SP q3 hp j
        + ∑ A : Fin 128, shapeCast SP q3 hp (ix3 (j 0 : Fin 4) (j 1 : Fin 65536) A)
          * blockDiag (softmax hr h0 hb0 hb1 hb2 (fun i : SW.Idx => ∑ s : Fin 4, ∑ t : Fin 8, ∑ r : Fin 8192,
              shapeCast SP q3 hp (ix3 (i 0 : Fin 4) (⟨8192 * t.val + r.val, by omega⟩ : Fin 65536)
                  (⟨32 * s.val + (i 1).val, by have h1 : (i 1).val < 32 := (i 1).isLt; omega⟩ : Fin 128))
                * shapeCast SP k3 hp (ix3 (i 0 : Fin 4) (⟨8192 * t.val + r.val, by omega⟩ : Fin 65536)
                  (⟨32 * s.val + (i 2).val, by have h2 : (i 2).val < 32 := (i 2).isLt; omega⟩ : Fin 128))))
            (ix3 (j 0 : Fin 4) A (j 2 : Fin 128)))
      = shapeCast SP (mix q3 (softmax hr h0 hb0 hb1 hb2 (scores q3 k3))) hp := by
  rw [scores_packed_fun q3 k3 hp]
  exact mix_packed_fun q3 (softmax hr h0 hb0 hb1 hb2 (scores q3 k3)) hp

end Cert.Attn

end
-- ==== Proof.KIValue.lean ====
/-
  The kernel program's result at the exact instance. Reading the run's last boundary back through its five segments:
  the result buffer is the reshape of the second kernel's array; that array is, row by row, the packed row plus its
  product with the block-diagonal weights; the weights are the softmax of the four folded diagonal blocks of the first
  kernel's array; that array is the packed cross products summed over each batch's eight row tiles; and the packed
  arrays are the two reshapes of the arguments. By the packed layout's algebra this is the specification's result of
  the two arguments.
-/
import proofs.«181825_j55095840473688_2_alg».proof.Proof.KIFrame
import proofs.«181825_j55095840473688_2_alg».proof.Proof.KIValue0
import proofs.«181825_j55095840473688_2_alg».proof.Proof.KIValue1
import proofs.«181825_j55095840473688_2_alg».proof.Proof.KIHost
import proofs.«181825_j55095840473688_2_alg».proof.Proof.Spec
import proofs.«181825_j55095840473688_2_alg».proof.Proof.Packed
import proofs.«181825_j55095840473688_2_alg».proof.Proof.PackedKernel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

open Cert.KernelIdeal.PayVal Cert.KernelIdeal.HostVal

variable (m : (ℓ : Loc nD τ sig) → Buf (Elt Ideal) ℓ) (ρ : Dev nD → PrngReg)

/-- The two arguments as rows of channels, and in the packed layout (four rows to a 128-lane packed row). -/
abbrev q3 (c : Dev nD) : FVec Ideal S4x262144x32 .f32 := shapeCast S4x262144x32 (m ((c : Thread nD τ).loc main_arg0)) shapeCasts_S4x64x64x64x32_S4x262144x32
abbrev k3 (c : Dev nD) : FVec Ideal S4x262144x32 .f32 := shapeCast S4x262144x32 (m ((c : Thread nD τ).loc main_arg1)) shapeCasts_S4x64x64x64x32_S4x262144x32
abbrev qp (c : Dev nD) : FVec Ideal S4x65536x128 .f32 := shapeCast S4x65536x128 (q3 m c) shapeCasts_S4x262144x32_S4x65536x128
abbrev kp (c : Dev nD) : FVec Ideal S4x65536x128 .f32 := shapeCast S4x65536x128 (k3 m c) shapeCasts_S4x262144x32_S4x65536x128
/-- The softmaxed channel weights. -/
abbrev wts (c : Dev nD) : FVec Ideal S4x32x32 .f32 :=
  Cert.Attn.softmax reducesTo_S4x32x32_S4x32_d2 h_S_ bcast_S_S4x32 bcast_S4x32_S4x32x1_0_1 bcast_S4x32x1_S4x32x32_0_1_2 (foldDiag (G0 (qp m c) (kp m c)))

theorem V1_v2 (c : Dev nD) : V1 m ρ c main_v2 = qp m c := host0_v2 (W0 m ρ c)
theorem V1_v3 (c : Dev nD) : V1 m ρ c main_v3 = kp m c := host0_v3 (W0 m ρ c)

/-- After the first kernel: its output array, and its first input array unchanged. -/
theorem W2_v4 (c : Dev nD) : W2 m ρ c (Proc.devRef .tc main_v4) = G0 (qp m c) (kp m c) :=
  (W2_arr m ρ c 2).trans ((final0 (V1 m ρ) c).trans (by rw [V1_v2, V1_v3]))
theorem W2_v2 (c : Dev nD) : W2 m ρ c (Proc.devRef .tc main_v2) = qp m c :=
  (W2_arr m ρ c 0).trans (((dat0 (V1 m ρ) c).arrAt_in 0 rfl _).trans ((A_eq0 (V1 m ρ) c 0).trans (V1_v2 m ρ c)))

/-- After the middle host stretch: the block-diagonal weights, and the packed rows untouched. -/
theorem V3_v31 (c : Dev nD) : V3 m ρ c main_v31 = Cert.Attn.blockDiag (wts m c) :=
  (host1_v31 (W2 m ρ c)).trans (by rw [W2_v4])
theorem V3_v2 (c : Dev nD) : V3 m ρ c main_v2 = qp m c :=
  (StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))).trans (W2_v2 m ρ c)

/-- After the second kernel: its output array. -/
theorem W4_v32 (c : Dev nD) : W4 m ρ c (Proc.devRef .tc main_v32) = G1 (qp m c) (Cert.Attn.blockDiag (wts m c)) :=
  (W4_arr m ρ c 2).trans ((final1 (V3 m ρ) (fun c i a2 h2 a3 h3 a4 h4 x0 x1 => out1_eq c i a2 h2 a3 h3 a4 h4 x0 x1) pay1B_apply c).trans (by rw [V3_v2, V3_v31]))

/-- THE RESULT: the result buffer at the last boundary is the specification's result of the two arguments. -/
theorem value (c : Dev nD) (h35 : S4x262144x32.ShapeCasts S4x64x64x64x32) :
    W5 m ρ c (Proc.devRef .tc main_v33)
      = Cert.Attn.result shapeCasts_S4x64x64x64x32_S4x262144x32 h35 reducesTo_S4x32x32_S4x32_d2 h_S_ bcast_S_S4x32 bcast_S4x32_S4x32x1_0_1 bcast_S4x32x1_S4x32x32_0_1_2
          (m ((c : Thread nD τ).loc main_arg0)) (m ((c : Thread nD τ).loc main_arg1)) := by
  rw [show W5 m ρ c (Proc.devRef .tc main_v33) = _ from host2_v33 (W4 m ρ c), W4_v32]
  have hk := Cert.Attn.packed_kernel (q3 m c) (k3 m c) shapeCasts_S4x262144x32_S4x65536x128 reducesTo_S4x32x32_S4x32_d2 h_S_ bcast_S_S4x32 bcast_S4x32_S4x32x1_0_1 bcast_S4x32x1_S4x32x32_0_1_2
  have e : G1 (qp m c) (Cert.Attn.blockDiag (wts m c))
      = shapeCast S4x65536x128 (Cert.Attn.mix (q3 m c) (Cert.Attn.softmax reducesTo_S4x32x32_S4x32_d2 h_S_ bcast_S_S4x32 bcast_S4x32_S4x32x1_0_1 bcast_S4x32x1_S4x32x32_0_1_2 (Cert.Attn.scores (q3 m c) (k3 m c)))) shapeCasts_S4x262144x32_S4x65536x128 := hk
  rw [e]
  exact Cert.Attn.cast_cast _ shapeCasts_S4x262144x32_S4x65536x128 shapeCasts_S4x65536x128_S4x64x64x64x32 h35

end Cert.KernelIdeal.Hand

end
-- ==== Proof.RefSide.lean ====
/-
  The reference program's result is the attention function of Spec.lean: its two contractions are the two sums,
  its chain of reductions, broadcasts, exponential and quotient between them is the softmax chain (the same
  operations in the same order, never opened here), and its two reshapes are the flattening and its inverse.
-/
import proofs.«181825_j55095840473688_2_alg».proof.Proof.Gen.ReferenceIdeal.Run
import proofs.«181825_j55095840473688_2_alg».proof.Proof.Gen.ReferenceIdeal.Read
import proofs.«181825_j55095840473688_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The first contraction is the matrix of scores of the two flattened arguments. -/
theorem scores_eq (x0 x1 : (⟨S4x64x64x64x32, .f32⟩ : BufTy).Contents (Elt Ideal)) :
    val_main_v2 (F := Ideal) x0 x1 = Cert.Attn.scores (val_main_v0 (F := Ideal) x0) (val_main_v1 (F := Ideal) x1) := by
  funext i
  rw [val_main_v2_apply]
  refine Finset.sum_congr rfl fun n _ => ?_
  have el : lidx_main_v2 i n = ix3 (i 0 : Fin 4) n (i 1 : Fin 32) := funext fun a => by
    match a with
    | ⟨0, _⟩ => rfl
    | ⟨1, _⟩ => rfl
    | ⟨2, _⟩ => rfl
  have er : ridx_main_v2 i n = ix3 (i 0 : Fin 4) n (i 2 : Fin 32) := funext fun a => by
    match a with
    | ⟨0, _⟩ => rfl
    | ⟨1, _⟩ => rfl
    | ⟨2, _⟩ => rfl
  rw [el, er]
  rfl

/-- The weights are the softmax chain applied to the scores: the program applies that chain, operation by operation. -/
theorem weights_eq (x0 x1 : (⟨S4x64x64x64x32, .f32⟩ : BufTy).Contents (Elt Ideal)) :
    val_main_v13 (F := Ideal) x0 x1
      = Cert.Attn.softmax reducesTo_S4x32x32_S4x32_d2 h_S_ bcast_S_S4x32 bcast_S4x32_S4x32x1_0_1 bcast_S4x32x1_S4x32x32_0_1_2
          (Cert.Attn.scores (val_main_v0 (F := Ideal) x0) (val_main_v1 (F := Ideal) x1)) := by
  rw [← scores_eq]
  rfl

/-- Reading the five-axis shape of a flattened array at an index is reading the array at the flattened index. -/
theorem unflatten_apply (y : FVec Ideal S4x262144x32 .f32) (i : S4x64x64x64x32.Idx) :
    shapeCast S4x64x64x64x32 y shapeCasts_S4x262144x32_S4x64x64x64x32 i = y (idx_main_v15 i) :=
  shapeCast_apply y shapeCasts_S4x262144x32_S4x64x64x64x32 i (idx_main_v15 i)
    (by rewrite [Shape.rowMajor_val_three, Shape.rowMajor_val_five]; have h0 : (i 0).val < 4 := (i 0).isLt; have h1 : (i 1).val < 64 := (i 1).isLt; have h2 : (i 2).val < 64 := (i 2).isLt; have h3 : (i 3).val < 64 := (i 3).isLt; have h4 : (i 4).val < 32 := (i 4).isLt; show ((((((i 0).val * 64 + (i 1).val) * 64 + (i 2).val) * 64 + (i 3).val) * 32 + (i 4).val) / 8388608 * 262144 + (((((i 0).val * 64 + (i 1).val) * 64 + (i 2).val) * 64 + (i 3).val) * 32 + (i 4).val) / 32 % 262144) * 32 + (((((i 0).val * 64 + (i 1).val) * 64 + (i 2).val) * 64 + (i 3).val) * 32 + (i 4).val) % 32 = ((((i 0).val * 64 + (i 1).val) * 64 + (i 2).val) * 64 + (i 3).val) * 32 + (i 4).val; omega)

/-- THE REFERENCE'S RESULT is the attention function of the two arguments. -/
theorem ref_eq (x0 x1 : (⟨S4x64x64x64x32, .f32⟩ : BufTy).Contents (Elt Ideal)) :
    val_main_v16 (F := Ideal) x0 x1
      = Cert.Attn.result shapeCasts_S4x64x64x64x32_S4x262144x32 shapeCasts_S4x262144x32_S4x64x64x64x32
          reducesTo_S4x32x32_S4x32_d2 h_S_ bcast_S_S4x32 bcast_S4x32_S4x32x1_0_1 bcast_S4x32x1_S4x32x32_0_1_2 x0 x1 := by
  funext i
  rw [val_main_v16_apply, val_main_v15_apply, val_main_v14_apply, weights_eq]
  unfold Cert.Attn.result
  rw [unflatten_apply]
  -- the argument read at i is its flattening read at the flattened index
  have e0 : x0 i = val_main_v0 (F := Ideal) x0 (idx_main_v15 i) := by
    have h := congrFun (shapeCast_shapeCast x0 shapeCasts_S4x64x64x64x32_S4x262144x32 shapeCasts_S4x262144x32_S4x64x64x64x32) i
    rw [unflatten_apply] at h
    exact h.symm
  rw [e0]
  generalize idx_main_v15 i = p
  show val_main_v0 (F := Ideal) x0 p + _ = val_main_v0 (F := Ideal) x0 p + _
  refine congrArg (_ + ·) (Finset.sum_congr rfl fun j _ => ?_)
  have el : lidx_main_v14 p j = ix3 (p 0 : Fin 4) (p 1 : Fin 262144) j := funext fun a => by
    match a with
    | ⟨0, _⟩ => rfl
    | ⟨1, _⟩ => rfl
    | ⟨2, _⟩ => rfl
  have er : ridx_main_v14 p j = ix3 (p 0 : Fin 4) (p 2 : Fin 32) j := funext fun a => by
    match a with
    | ⟨0, _⟩ => rfl
    | ⟨1, _⟩ => rfl
    | ⟨2, _⟩ => rfl
  rw [el, er]
  rfl

end Cert.ReferenceIdeal.RefValue

end
-- ==== Proof.lean ====
/-
  The channel-attention kernel against its reference. Both programs compute, per batch, the 32 x 32 matrix of channel
  cross products of the two inputs over all 262144 positions, its softmax over the last axis, and add to each
  position's channels their product with the softmaxed matrix. The kernel does so in a packed layout (four positions
  to one 128-lane row): a first kernel accumulates the 128 x 128 packed cross products over eight row tiles per batch,
  the host folds the four diagonal 32 x 32 blocks, takes the softmax and lays the transposed weights out four times on
  the diagonal of a 128 x 128 matrix, and a second kernel multiplies each packed row block by it and adds the block.
  Over the extended reals the two are one function: a sum re-ordered, products with zero, zeros added.

  The three frames: each kernel program's run over its five segments (at the word level and at the exact instance),
  and the reference's generated run. The idealization rewrote nothing. The equivalence: the kernel's run with its
  result buffer read back as the specification's result of the arguments, the reference's run read the same way.
-/
import proofs.«181825_j55095840473688_2_alg».proof.Defs
import proofs.«181825_j55095840473688_2_alg».proof.Proof.Gen.Kernel
import proofs.«181825_j55095840473688_2_alg».proof.Proof.Gen.KernelIdeal
import proofs.«181825_j55095840473688_2_alg».proof.Proof.Gen.ReferenceIdeal
import proofs.«181825_j55095840473688_2_alg».proof.Proof.Gen.Pre_finite_inputs
import proofs.«181825_j55095840473688_2_alg».proof.Proof.Gen.ReferenceIdeal.Run
import proofs.«181825_j55095840473688_2_alg».proof.Proof.Gen.ReferenceIdeal.Read
import proofs.«181825_j55095840473688_2_alg».proof.Proof.KBFrame
import proofs.«181825_j55095840473688_2_alg».proof.Proof.KIFrame
import proofs.«181825_j55095840473688_2_alg».proof.Proof.KIValue
import proofs.«181825_j55095840473688_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result of arguments that agree. -/
theorem algebraic : Cert.algebraic_KernelIdeal_ReferenceIdeal := by
  intro m ρ m' ρ' _ hagree
  have h35 : Cert.KernelIdeal.S4x262144x32.ShapeCasts Cert.KernelIdeal.S4x64x64x64x32 := by decide
  refine ⟨fun c => Cert.Attn.result Cert.KernelIdeal.Gen.shapeCasts_S4x64x64x64x32_S4x262144x32 h35 Cert.KernelIdeal.Gen.reducesTo_S4x32x32_S4x32_d2 Cert.KernelIdeal.Gen.h_S_ Cert.KernelIdeal.Gen.bcast_S_S4x32 Cert.KernelIdeal.Gen.bcast_S4x32_S4x32x1_0_1 Cert.KernelIdeal.Gen.bcast_S4x32x1_S4x32x32_0_1_2
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_all m ρ)
    · exact (h c _ (Cert.KernelIdeal.Hand.mem_uc Cert.KernelIdeal.main_v33 (by decide))).trans (Cert.KernelIdeal.Hand.value m ρ c h35)
    · exact (h c _ (Cert.KernelIdeal.Hand.mem_uc Cert.KernelIdeal.main_arg0 (by decide))).trans (Cert.KernelIdeal.Hand.W5_main_arg0 m ρ c)
    · exact (h c _ (Cert.KernelIdeal.Hand.mem_uc Cert.KernelIdeal.main_arg1 (by decide))).trans (Cert.KernelIdeal.Hand.W5_main_arg1 m ρ c)
  · refine (θ_run Cert.ReferenceIdeal.defs _ _).mono (fun _ h c => ⟨(h c).1.trans ?_, (h c).2⟩) (Cert.ReferenceIdeal.Value.run (F := Ideal) m' ρ')
    show Cert.ReferenceIdeal.Read.val_main_v16 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    rw [Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
